-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x8192x3 : Shape := ⟨3, ![8, 8192, 3]⟩
abbrev S8x2048x3 : Shape := ⟨3, ![8, 2048, 3]⟩
abbrev S_ : Shape := ⟨0, ![]⟩

class Facts : Prop where
  bcast_S_S8x8192x3 : S_.BroadcastsInDim S8x8192x3 (![] : Fin 0 → Fin S8x8192x3.rank)
  reducesTo_S8x8192x3_S_d0_1_2 : S8x8192x3.ReducesTo [0, 1, 2] S_
  h_S_ : 0 < S_.numel
  bcast_S_S8x2048x3 : S_.BroadcastsInDim S8x2048x3 (![] : Fin 0 → Fin S8x2048x3.rank)
  reducesTo_S8x2048x3_S_d0_1_2 : S8x2048x3.ReducesTo [0, 1, 2] S_

variable [Facts]

def fn {F : FTy → Type} [FloatOps F] (main_arg0 : FVec F S8x8192x3 .f32) (main_arg1 : FVec F S8x2048x3 .f32) : IVec S_ 1 :=
  let main_v0 : FVec F S8x8192x3 .f32 := Host.absf main_arg0
  let main_cst : FVec F S_ .f32 := constant S_ .f32 0x7F800000#32
  let main_v1 : FVec F S8x8192x3 .f32 := broadcastInDim S8x8192x3 ![] bcast_S_S8x8192x3 main_cst
  let main_v2 : IVec S8x8192x3 1 := cmpf .olt main_v0 main_v1
  let main_c : IVec S_ 1 := constantI S_ 1 1#1
  let main_v3 : IVec S_ 1 := (fun x v => Host.reduce IntOp.andi x v reducesTo_S8x8192x3_S_d0_1_2 h_S_) main_v2 main_c
  let main_v4 : FVec F S8x2048x3 .f32 := Host.absf main_arg1
  let main_cst_0 : FVec F S_ .f32 := constant S_ .f32 0x7F800000#32
  let main_v5 : FVec F S8x2048x3 .f32 := broadcastInDim S8x2048x3 ![] bcast_S_S8x2048x3 main_cst_0
  let main_v6 : IVec S8x2048x3 1 := cmpf .olt main_v4 main_v5
  let main_c_1 : IVec S_ 1 := constantI S_ 1 1#1
  let main_v7 : IVec S_ 1 := (fun x v => Host.reduce IntOp.andi x v reducesTo_S8x2048x3_S_d0_1_2 h_S_) main_v6 main_c_1
  let main_v8 : IVec S_ 1 := andi main_v3 main_v7
  main_v8
-- ==== Kernel.lean ====
abbrev S8x8192x3 : Shape := ⟨3, ![8, 8192, 3]⟩
abbrev S8x2048x3 : Shape := ⟨3, ![8, 2048, 3]⟩
abbrev S8x3x2048 : Shape := ⟨3, ![8, 3, 2048]⟩
abbrev S8x1x1 : Shape := ⟨3, ![8, 1, 1]⟩
abbrev S1x1024x3 : Shape := ⟨3, ![1, 1024, 3]⟩
abbrev S1x3x2048 : Shape := ⟨3, ![1, 3, 2048]⟩
abbrev S1x1x1 : Shape := ⟨3, ![1, 1, 1]⟩
abbrev S1x2048 : Shape := ⟨2, ![1, 2048]⟩
abbrev S1x1 : Shape := ⟨2, ![1, 1]⟩
abbrev S1024x3 : Shape := ⟨2, ![1024, 3]⟩
abbrev S3x2048 : Shape := ⟨2, ![3, 2048]⟩
abbrev S1024 : Shape := ⟨1, ![1024]⟩
abbrev S1024x1 : Shape := ⟨2, ![1024, 1]⟩
abbrev S2048 : Shape := ⟨1, ![2048]⟩
abbrev S1024x2048 : Shape := ⟨2, ![1024, 2048]⟩
abbrev S1 : Shape := ⟨1, ![1]⟩
abbrev S_ : Shape := ⟨0, ![]⟩

abbrev nBuf : Space → Nat
  | .hbm => 8
  | .vmem => 8
  | .smem => 0
  | _ => 0

abbrev bufTy : (tb : Table) → Fin (tcTables nBuf tb) → BufTy
  | .hbm, ⟨0, _⟩ => ⟨S8x8192x3, .f32⟩
  | .hbm, ⟨1, _⟩ => ⟨S8x2048x3, .f32⟩
  | .hbm, ⟨2, _⟩ => ⟨S8x3x2048, .f32⟩
  | .hbm, ⟨3, _⟩ => ⟨S8x1x1, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .local _ .vmem, ⟨0, _⟩ => ⟨S1x1024x3, .f32⟩
  | .local _ .vmem, ⟨1, _⟩ => ⟨S1x1024x3, .f32⟩
  | .local _ .vmem, ⟨2, _⟩ => ⟨S1x3x2048, .f32⟩
  | .local _ .vmem, ⟨3, _⟩ => ⟨S1x3x2048, .f32⟩
  | .local _ .vmem, ⟨4, _⟩ => ⟨S1x1x1, .f32⟩
  | .local _ .vmem, ⟨5, _⟩ => ⟨S1x1x1, .f32⟩
  | .local _ .vmem, ⟨6, _⟩ => ⟨S1x2048, .f32⟩
  | .local _ .vmem, ⟨7, _⟩ => ⟨S1x1, .f32⟩
  | _, _ => ⟨S8x8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v52 : BitVec 1 := Scalar.cmpi .eq arg1 c7_i32
  let v53 : BitVec 32 := Scalar.extui v52
  let c0_i32_19 : BitVec 32 := 0#32
  let v54 : BitVec 1 := Scalar.cmpi .ne v53 c0_i32_19
  v54

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x3x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  transposes_S8x2048x3_S8x3x2048_0_2_1 : S8x2048x3.Transposes [0, 2, 1] S8x3x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1x1024x3_S1x1024x3_0_0_0 : ∀ a, (![0, 0, 0] : Fin 3 → Nat) a + S1x1024x3.size a ≤ S1x1024x3.size a
  h_S1x1024x3 : 0 < S1x1024x3.numel
  shapeCasts_S1x1024x3_S1024x3 : S1x1024x3.ShapeCasts S1024x3
  inb_S1x3x2048_S1x3x2048_0_0_0 : ∀ a, (![0, 0, 0] : Fin 3 → Nat) a + S1x3x2048.size a ≤ S1x3x2048.size a
  h_S1x3x2048 : 0 < S1x3x2048.numel
  shapeCasts_S1x3x2048_S3x2048 : S1x3x2048.ShapeCasts S3x2048
  reduces_S1024x3_S1024 : S1024x3.Reduces [1] S1024
  shapeCasts_S1024_S1024x1 : S1024.ShapeCasts S1024x1
  reduces_S3x2048_S2048 : S3x2048.Reduces [0] S2048
  shapeCasts_S2048_S1x2048 : S2048.ShapeCasts S1x2048
  slices_S1024x3_o0_0_S1024x1 : S1024x3.Slices ![0, 0] S1024x1
  slices_S3x2048_o0_0_S1x2048 : S3x2048.Slices ![0, 0] S1x2048
  broadcasts_S1024x1_S1024x2048 : S1024x1.Broadcasts S1024x2048
  broadcasts_S1x2048_S1024x2048 : S1x2048.Broadcasts S1024x2048
  slices_S1024x3_o0_1_S1024x1 : S1024x3.Slices ![0, 1] S1024x1
  slices_S3x2048_o1_0_S1x2048 : S3x2048.Slices ![1, 0] S1x2048
  slices_S1024x3_o0_2_S1024x1 : S1024x3.Slices ![0, 2] S1024x1
  slices_S3x2048_o2_0_S1x2048 : S3x2048.Slices ![2, 0] S1x2048
  reduces_S1024x2048_S1024 : S1024x2048.Reduces [1] S1024
  reduces_S1024x2048_S2048 : S1024x2048.Reduces [0] S2048
  reduces_S1024x1_S1 : S1024x1.Reduces [0] S1
  shapeCasts_S1_S1x1 : S1.ShapeCasts S1x1
  reduces_S1x2048_S1 : S1x2048.Reduces [1] S1
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  reducesTo_S8x1x1_S_d0_1_2 : S8x1x1.ReducesTo [0, 1, 2] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x3.size a ≤ S8x8192x3.size a
  hwx0_0 : ∀ i : grid0.Coords, EltTy.bits .f32 = 32 ∨ (Rect.block (s := S8x8192x3) S1x1024x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x2048.size a ≤ S8x3x2048.size a
  hwx0_1 : ∀ i : grid0.Coords, EltTy.bits .f32 = 32 ∨ (Rect.block (s := S8x3x2048) S1x3x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1.size a ≤ S8x1x1.size a
  hwx0_2 : ∀ i : grid0.Coords, EltTy.bits .f32 = 32 ∨ (Rect.block (s := S8x1x1) S1x1x1.size (cc0_transform_2 i) (hinb0_2 i)).WholeWords (EltTy.packing .f32)

variable [Facts₀]

abbrev win0_0 : Pipeline.Window sig grid0 :=
  Pipeline.Window.ofSpec (Memref.whole main_arg0) S1x1024x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x3x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S8x8192x3 : Shape := ⟨3, ![8, 8192, 3]⟩
abbrev S8x2048x3 : Shape := ⟨3, ![8, 2048, 3]⟩
abbrev S_ : Shape := ⟨0, ![]⟩
abbrev S8x8192 : Shape := ⟨2, ![8, 8192]⟩
abbrev S8x2048 : Shape := ⟨2, ![8, 2048]⟩
abbrev S8x8192x2048 : Shape := ⟨3, ![8, 8192, 2048]⟩
abbrev S8x8192x1 : Shape := ⟨3, ![8, 8192, 1]⟩
abbrev S8x1x2048 : Shape := ⟨3, ![8, 1, 2048]⟩

abbrev nBuf : Space → Nat
  | .hbm => 29
  | .vmem => 0
  | .smem => 0
  | _ => 0

abbrev bufTy : (tb : Table) → Fin (tcTables nBuf tb) → BufTy
  | .hbm, ⟨0, _⟩ => ⟨S8x8192x3, .f32⟩
  | .hbm, ⟨1, _⟩ => ⟨S8x2048x3, .f32⟩
  | .hbm, ⟨2, _⟩ => ⟨S8x8192x3, .f32⟩
  | .hbm, ⟨3, _⟩ => ⟨S_, .f32⟩
  | .hbm, ⟨4, _⟩ => ⟨S8x8192, .f32⟩
  | .hbm, ⟨5, _⟩ => ⟨S8x2048x3, .f32⟩
  | .hbm, ⟨6, _⟩ => ⟨S_, .f32⟩
  | .hbm, ⟨7, _⟩ => ⟨S8x2048, .f32⟩
  | .hbm, ⟨8, _⟩ => ⟨S8x8192x2048, .f32⟩
  | .hbm, ⟨9, _⟩ => ⟨S8x8192x1, .f32⟩
  | .hbm, ⟨10, _⟩ => ⟨S8x1x2048, .f32⟩
  | .hbm, ⟨11, _⟩ => ⟨S8x8192x2048, .f32⟩
  | .hbm, ⟨12, _⟩ => ⟨S8x8192x2048, .f32⟩
  | .hbm, ⟨13, _⟩ => ⟨S8x8192x2048, .f32⟩
  | .hbm, ⟨14, _⟩ => ⟨S_, .f32⟩
  | .hbm, ⟨15, _⟩ => ⟨S8x8192x2048, .f32⟩
  | .hbm, ⟨16, _⟩ => ⟨S8x8192x2048, .f32⟩
  | .hbm, ⟨17, _⟩ => ⟨S8x8192x2048, .f32⟩
  | .hbm, ⟨18, _⟩ => ⟨S_, .f32⟩
  | .hbm, ⟨19, _⟩ => ⟨S8x8192, .f32⟩
  | .hbm, ⟨20, _⟩ => ⟨S_, .f32⟩
  | .hbm, ⟨21, _⟩ => ⟨S8x2048, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | _, _ => ⟨S8x8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_cst_4 : Ref sig .tc := ⟨.hbm, 22, rfl⟩
abbrev main_v15 : Ref sig .tc := ⟨.hbm, 23, rfl⟩
abbrev main_cst_5 : Ref sig .tc := ⟨.hbm, 24, rfl⟩
abbrev main_v16 : Ref sig .tc := ⟨.hbm, 25, rfl⟩
abbrev main_v17 : Ref sig .tc := ⟨.hbm, 26, rfl⟩
abbrev main_cst_6 : Ref sig .tc := ⟨.hbm, 27, rfl⟩
abbrev main_v18 : Ref sig .tc := ⟨.hbm, 28, rfl⟩

abbrev nD : Nat := 1
abbrev τ : Topo := Topo.v7x

variable {F : FTy → Type} [FloatOps F]

class Facts₀ : Prop where
  reducesTo_S8x8192x3_S8x8192_d2 : S8x8192x3.ReducesTo [2] S8x8192
  h_S_ : 0 < S_.numel
  reducesTo_S8x2048x3_S8x2048_d2 : S8x2048x3.ReducesTo [2] S8x2048
  bcast_S8x8192_S8x8192x1_0_1 : S8x8192.BroadcastsInDim S8x8192x1 (![0, 1] : Fin 2 → Fin S8x8192x1.rank)
  bcast_S8x2048_S8x1x2048_0_2 : S8x2048.BroadcastsInDim S8x1x2048 (![0, 2] : Fin 2 → Fin S8x1x2048.rank)
  bcast_S8x8192x1_S8x8192x2048_0_1_2 : S8x8192x1.BroadcastsInDim S8x8192x2048 (![0, 1, 2] : Fin 3 → Fin S8x8192x2048.rank)
  bcast_S8x1x2048_S8x8192x2048_0_1_2 : S8x1x2048.BroadcastsInDim S8x8192x2048 (![0, 1, 2] : Fin 3 → Fin S8x8192x2048.rank)
  bcast_S_S8x8192x2048 : S_.BroadcastsInDim S8x8192x2048 (![] : Fin 0 → Fin S8x8192x2048.rank)
  reducesTo_S8x8192x2048_S8x8192_d2 : S8x8192x2048.ReducesTo [2] S8x8192
  reducesTo_S8x8192x2048_S8x2048_d1 : S8x8192x2048.ReducesTo [1] S8x2048
  reducesTo_S8x8192_S_d0_1 : S8x8192.ReducesTo [0, 1] S_
  reducesTo_S8x2048_S_d0_1 : S8x2048.ReducesTo [0, 1] S_
  dot_S8x8192x3_S8x2048x3_S8x8192x2048_2_2_1_1_0_0_wf : DotDims.WF S8x8192x3 S8x2048x3 S8x8192x2048 [2] [2] [1] [1] [0] [0]

variable [Facts₀]

def dot_S8x8192x3_S8x2048x3_S8x8192x2048_2_2_1_1_0_0 : DotDims S8x8192x3 S8x2048x3 S8x8192x2048 where
  lhsContracting := [2]
  rhsContracting := [2]
  lhsNonContracting := [1]
  rhsNonContracting := [1]
  lhsBatch := [0]
  rhsBatch := [0]
  wf := dot_S8x8192x3_S8x2048x3_S8x8192x2048_2_2_1_1_0_0_wf

class Facts : Prop extends Facts₀ where

variable [Facts]
-- ==== Proof.LibKeepdims.lean ====
/-
  Layout operations of a sum taken with `keepdims`, read at an index given by coordinates, and a one-axis sum read
  as a sum over that axis's coordinate. General facts about shapes [a], [a, 1], [1, a] and [a, b]: nothing here
  mentions a program.

  • `shapeCast_a_a1_apply`: a vector [a] viewed as the column [a, 1] reads, at (i, u), the vector at i.
  • `broadcastTo_a1_ab_apply`: a column [a, 1] broadcast to [a, b] reads, at (p, c), the column at (p, 0).
  • `rowSum_apply`: the sum of an [a, b] array along its second axis reads, at p, the sum over k of the array at (p, k).
  • `rowSumSq_bcast_apply`: the squares of an [a, b] array summed along the second axis, kept as a column and broadcast
    to [a, c]: at (p, q) the sum over k of the square at (p, k) — a row's squared norm, the same in every column.
  • `colSumSq_bcast_apply`: the same sum for a [c, b] array, its column transposed to a row [1, c] and broadcast to
    [a, c]: at (p, q) the sum over k of the square at (q, k) — a row's squared norm, the same in every row.
-/
import Idealize.ShloMosaic.Lib.ValueLayout
import Idealize.ShloMosaic.PureOps.Ideal.Laws

noncomputable section

namespace Cert.Keepdims

open Idealize.ShloMosaic Idealize.ShloMosaic.ValueIdx

variable {α : Type}

/-- An `[a]` vector cast to the column `[a, 1]` reads, at `(i, u)`, the vector at `i`: the two row-major positions are
    `i` and `i * 1 + u` with `u = 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- A float sum of an `[a, b]` array along its second axis, on the extended reals, reads at `p` the sum over `k` of the
    array at `(p, k)`. -/
theorem rowSum_apply {a b : ℕ} (src : FVec Ideal ⟨2, ![a, b]⟩ .f32) (hR : (⟨2, ![a, b]⟩ : Shape).Reduces [1] ⟨1, ![a]⟩)
    (hφ : FKind.Formats .f32) (hacc : (0x00000000#32 : BitVec 32) = FKind.add.neutral .f32 hφ) (p : Fin a) :
    multiReduction (F := Ideal) .add [1] ⟨1, ![a]⟩ src 0x00000000#32 hR hφ hacc (ix1 p) = ∑ k : Fin b, src (ix2 p k) :=
  (Ideal.multiReduction_add_single src _ hR hφ hacc (ix1 p)).trans
    (Finset.sum_congr rfl fun k _ => congrArg src (funext fun d => by match d with | ⟨0, _⟩ => rfl | ⟨1, _⟩ => rfl))

/-- Each row's squared norm, kept as a column and broadcast along the rows of `[a, c]`. -/
theorem rowSumSq_bcast_apply {a b c : ℕ} (v : FVec Ideal ⟨2, ![a, b]⟩ .f32) (hR : (⟨2, ![a, b]⟩ : Shape).Reduces [1] ⟨1, ![a]⟩)
    (hφ : FKind.Formats .f32) (hacc : (0x00000000#32 : BitVec 32) = FKind.add.neutral .f32 hφ)
    (hC : (⟨1, ![a]⟩ : Shape).ShapeCasts ⟨2, ![a, 1]⟩) (hB : (⟨2, ![a, 1]⟩ : Shape).Broadcasts ⟨2, ![a, c]⟩) (p : Fin a) (q : Fin c) :
    broadcastTo ⟨2, ![a, c]⟩ (shapeCast ⟨2, ![a, 1]⟩ (multiReduction (F := Ideal) .add [1] ⟨1, ![a]⟩ (mulf v v) 0x00000000#32 hR hφ hacc) hC) hB (ix2 p q)
      = ∑ k : Fin b, v (ix2 p k) * v (ix2 p k) :=
  (broadcastTo_a1_ab_apply _ hB p q).trans
    ((shapeCast_a_a1_apply _ hC p 0).trans (rowSum_apply (mulf v v) hR hφ hacc p))

/-- Each row's squared norm of a `[c, b]` array, its column turned into a row and broadcast down the rows of `[a, c]`. -/
theorem colSumSq_bcast_apply {a b c : ℕ} (w : FVec Ideal ⟨2, ![c, b]⟩ .f32) (hR : (⟨2, ![c, b]⟩ : Shape).Reduces [1] ⟨1, ![c]⟩)
    (hφ : FKind.Formats .f32) (hacc : (0x00000000#32 : BitVec 32) = FKind.add.neutral .f32 hφ)
    (hC : (⟨1, ![c]⟩ : Shape).ShapeCasts ⟨2, ![c, 1]⟩) (hT : (⟨2, ![c, 1]⟩ : Shape).Transposes [1, 0] ⟨2, ![1, c]⟩)
    (hB : (⟨2, ![1, c]⟩ : Shape).Broadcasts ⟨2, ![a, c]⟩) (p : Fin a) (q : Fin c) :
    broadcastTo ⟨2, ![a, c]⟩ (transpose ⟨2, ![1, c]⟩ [1, 0]
        (shapeCast ⟨2, ![c, 1]⟩ (multiReduction (F := Ideal) .add [1] ⟨1, ![c]⟩ (mulf w w) 0x00000000#32 hR hφ hacc) hC) hT) hB (ix2 p q)
      = ∑ k : Fin b, w (ix2 q k) * w (ix2 q k) :=
  (broadcastTo_1b_ab_apply _ hB p q).trans
    ((transpose_ix2_apply _ hT 0 q).trans
      ((shapeCast_a_a1_apply _ hC q 0).trans (rowSum_apply (mulf w w) hR hφ hacc q)))

end Cert.Keepdims

end
-- ==== Proof.LibMinOps.lean ====
/-
  Minima of a matrix along one axis, and a matrix's sum down its rows, each read at an index written by its coordinates,
  on the extended reals.

  For an `[a, b]` matrix the minimum along the lanes at row `p` is the fold of `min`, from the accumulator's value, over
  `c : Fin b` of the entries `(p, c)`; the minimum down the rows at lane `q` is the fold over `r : Fin a` of the entries
  `(r, q)`; the sum down the rows at lane `q` is the sum over `r` of them. The host's minimum over the LAST axis of an
  `[n, a, b]` array reads, at `(k, p)`, the fold over `c : Fin b` of the entries `(k, p, c)`; over the MIDDLE axis, at
  `(k, c)`, the fold over `p : Fin a` of the same entries. The bit pattern of `+∞` is the greatest extended real, so a
  fold of `min` that starts there is the plain minimum of the family.
-/
import Idealize.ShloMosaic.PureOps.Ideal.Laws
import Idealize.ShloMosaic.Lib.Pipeline.Value
import Idealize.ShloMosaic.Lib.ValueIdx

namespace Cert.MinOps

open Idealize.ShloMosaic Idealize.ShloMosaic.ValueIdx

/-- The f32 pattern of `+∞` is the greatest extended real. -/
theorem posInf_eq_top : Ideal.ofBits .f32 0x7F800000#32 = (⊤ : EReal) := by
  simp [Ideal.ofBits, Ideal.ieee]

variable {φ : FTy}

/-- A float minimum over ONE axis, on the extended reals: the fold of `min`, from the accumulator's value, over that axis's
    coordinates. -/
theorem multiReduction_minimumf_single {s t : Shape} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (Ideal.ofBits φ acc) (src ∘ h.lift j) := by
  rw [multiReduction_minimumf_eq_fold]; exact h.fold_filter_drop_single _ _ src j

/-- The lane minimum of row `p`: the fold of `min` over the row's `b` entries. -/
theorem laneMin_apply {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.minimumf.neutral φ hφ)
    (p : Fin a) :
    multiReduction .minimumf [1] ⟨1, ![a]⟩ src acc h hφ hacc (ix1 p)
      = (Finset.univ : Finset (Fin b)).fold min (Ideal.ofBits φ acc) (fun c => src (ix2 p c)) := by
  refine (multiReduction_minimumf_single src acc h hφ hacc (ix1 p)).trans ?_
  show (Finset.univ : Finset (Fin b)).fold min (Ideal.ofBits φ acc) (fun c => src (h.lift (ix1 p) c)) = _
  refine congrArg (fun f => (Finset.univ : Finset (Fin b)).fold min (Ideal.ofBits φ acc) f) (funext fun c => ?_)
  exact congrArg src (funext fun ax => Fin.ext (by match ax with | ⟨0, _⟩ => rfl | ⟨1, _⟩ => rfl))

/-- The minimum down the rows at lane `q`: the fold of `min` over the column's `a` entries. -/
theorem rowsMin_apply {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.minimumf.neutral φ hφ)
    (q : Fin b) :
    multiReduction .minimumf [0] ⟨1, ![b]⟩ src acc h hφ hacc (ix1 q)
      = (Finset.univ : Finset (Fin a)).fold min (Ideal.ofBits φ acc) (fun r => src (ix2 r q)) := by
  refine (multiReduction_minimumf_single src acc h hφ hacc (ix1 q)).trans ?_
  show (Finset.univ : Finset (Fin a)).fold min (Ideal.ofBits φ acc) (fun r => src (h.lift (ix1 q) r)) = _
  refine congrArg (fun f => (Finset.univ : Finset (Fin a)).fold min (Ideal.ofBits φ acc) f) (funext fun r => ?_)
  exact congrArg src (funext fun ax => Fin.ext (by match ax with | ⟨0, _⟩ => rfl | ⟨1, _⟩ => rfl))

/-- The sum down the rows at lane `q`: the sum of the column's `a` entries. -/
theorem rowsSum_apply {a b : ℕ} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ)
    (q : Fin b) :
    multiReduction .add [0] ⟨1, ![b]⟩ src acc h hφ hacc (ix1 q) = ∑ r : Fin a, src (ix2 r q) := by
  refine (Ideal.multiReduction_add_single src acc h hφ hacc (ix1 q)).trans ?_
  show ∑ r : Fin a, src (h.lift (ix1 q) r) = _
  refine Finset.sum_congr rfl fun r _ => ?_
  exact congrArg src (funext fun ax => Fin.ext (by match ax with | ⟨0, _⟩ => rfl | ⟨1, _⟩ => rfl))

/-- The host's minimum over the LAST axis of an `[n, a, b]` array, at `(k, p)`: the fold of `min`, from the initial value,
    over `c : Fin b` of the entries `(k, p, c)`. -/
theorem hostLastMin_apply {n a b : ℕ} {u : Shape} (x : (⟨3, ![n, a, b]⟩ : Shape).Idx → Ideal φ) (init : u.Idx → Ideal φ)
    (h' : (⟨3, ![n, a, b]⟩ : Shape).ReducesTo [2] ⟨2, ![n, a]⟩) (h : (⟨3, ![n, a, b]⟩ : Shape).Reduces [2] ⟨2, ![n, a]⟩)
    (hu : 0 < u.numel) (k : Fin n) (p : Fin a) :
    Host.reduce (FloatOps.minimumf (F := Ideal) (φ := φ)) x init h' hu (ix2 k p)
      = (Finset.univ : Finset (Fin b)).fold min (init (Shape.Idx.first hu)) (fun c => x (ix3 k p c)) := by
  refine (Host.reduce_eq_fold_single (FloatOps.minimumf (F := Ideal) (φ := φ)) x init h' h hu (ix2 k p)).trans ?_
  show (Finset.univ : Finset (Fin b)).fold min (init (Shape.Idx.first hu)) (fun c => x (h.lift (ix2 k p) c)) = _
  refine congrArg (fun f => (Finset.univ : Finset (Fin b)).fold min (init (Shape.Idx.first hu)) f) (funext fun c => ?_)
  exact congrArg x (funext fun ax => Fin.ext (by match ax with | ⟨0, _⟩ => rfl | ⟨1, _⟩ => rfl | ⟨2, _⟩ => rfl))

/-- The host's minimum over the MIDDLE axis of an `[n, a, b]` array, at `(k, c)`: the fold of `min`, from the initial
    value, over `p : Fin a` of the entries `(k, p, c)`. -/
theorem hostMidMin_apply {n a b : ℕ} {u : Shape} (x : (⟨3, ![n, a, b]⟩ : Shape).Idx → Ideal φ) (init : u.Idx → Ideal φ)
    (h' : (⟨3, ![n, a, b]⟩ : Shape).ReducesTo [1] ⟨2, ![n, b]⟩) (h : (⟨3, ![n, a, b]⟩ : Shape).Reduces [1] ⟨2, ![n, b]⟩)
    (hu : 0 < u.numel) (k : Fin n) (c : Fin b) :
    Host.reduce (FloatOps.minimumf (F := Ideal) (φ := φ)) x init h' hu (ix2 k c)
      = (Finset.univ : Finset (Fin a)).fold min (init (Shape.Idx.first hu)) (fun p => x (ix3 k p c)) := by
  refine (Host.reduce_eq_fold_single (FloatOps.minimumf (F := Ideal) (φ := φ)) x init h' h hu (ix2 k c)).trans ?_
  show (Finset.univ : Finset (Fin a)).fold min (init (Shape.Idx.first hu)) (fun p => x (h.lift (ix2 k c) p)) = _
  refine congrArg (fun f => (Finset.univ : Finset (Fin a)).fold min (init (Shape.Idx.first hu)) f) (funext fun p => ?_)
  exact congrArg x (funext fun ax => Fin.ext (by match ax with | ⟨0, _⟩ => rfl | ⟨1, _⟩ => rfl | ⟨2, _⟩ => rfl))

/-- A sum over the indices of an `[n, 1, 1]` array is the sum over its first coordinate. -/
theorem sum_idx_n11 {M : Type*} [AddCommMonoid M] {n : ℕ} (f : (⟨3, ![n, 1, 1]⟩ : Shape).Idx → M) :
    ∑ j, f j = ∑ k : Fin n, f (ix3 k (0 : Fin 1) (0 : Fin 1)) := by
  refine (Fintype.sum_equiv
    (⟨fun k => ix3 k (0 : Fin 1) (0 : Fin 1), fun j => j 0, fun _ => rfl, fun j => funext fun d => ?_⟩ :
      Fin n ≃ (⟨3, ![n, 1, 1]⟩ : Shape).Idx) _ _ fun _ => rfl).symm
  match d with
  | ⟨0, _⟩ => rfl
  | ⟨1, _⟩ => exact Subsingleton.elim (α := Fin 1) _ _
  | ⟨2, _⟩ => exact Subsingleton.elim (α := Fin 1) _ _

end Cert.MinOps
-- ==== Proof.ChamferTile.lean ====
/-
  The arithmetic of one grid point, read entry by entry on the extended reals.

  A grid point sees a block `g` of 1024 points of the first cloud (rows, three coordinates each) and the whole second cloud
  `s` of the same batch laid out coordinate-major (three rows of 2048 lanes). Entry `(r, q)` of the tile of squared
  distances is `(|g_r|² + |s_q|²) - 2 · ((g_r0 · s_0q + g_r1 · s_1q) + g_r2 · s_2q)`; the tile's lane minimum at row `r`
  and its minimum down the rows at lane `q` are folds of `min` from `+∞`; the running sum adds the sum of the 1024 lane
  minima to what it held; the running minimum takes the lane-wise `min` with what it held; the result is the running sum
  plus the sum of the 2048 running minima; the two resets store `+∞` and `0`.
-/
import proofs.«165440_j12506944766654_2_alg».proof.Proof.Gen.KernelIdeal.Skeleton
import proofs.«165440_j12506944766654_2_alg».proof.Proof.LibKeepdims
import proofs.«165440_j12506944766654_2_alg».proof.Proof.LibMinOps
import Idealize.ShloMosaic.Lib.ValueLayout
import Idealize.ShloMosaic.Lib.Pipeline.Value
import Idealize.ShloMosaic.Lib.ValueIdx

noncomputable section

namespace Cert.KernelIdeal.Tile

open Cert.KernelIdeal Cert.KernelIdeal.Gen Idealize.ShloMosaic Idealize.ShloMosaic.ValueIdx

/-- The factor of the cross term. -/
abbrev two : EReal := Ideal.ofBits .f32 0x40000000#32

/-- Entry `(r, q)` of the tile: the squared distance between row `r` of the block and point `q` of the second cloud,
    expanded. -/
def tileDist (x0 : Vec Ideal S1x1024x3 .f32) (x1 : Vec Ideal S1x3x2048 .f32) (r : Fin 1024) (q : Fin 2048) : EReal :=
  ((∑ k : Fin 3, x0 (ix3 (0 : Fin 1) r k) * x0 (ix3 (0 : Fin 1) r k))
      + ∑ k : Fin 3, x1 (ix3 (0 : Fin 1) k q) * x1 (ix3 (0 : Fin 1) k q))
    - two * ((x0 (ix3 (0 : Fin 1) r (⟨0, by decide⟩ : Fin 3)) * x1 (ix3 (0 : Fin 1) (⟨0, by decide⟩ : Fin 3) q)
        + x0 (ix3 (0 : Fin 1) r (⟨1, by decide⟩ : Fin 3)) * x1 (ix3 (0 : Fin 1) (⟨1, by decide⟩ : Fin 3) q))
        + x0 (ix3 (0 : Fin 1) r (⟨2, by decide⟩ : Fin 3)) * x1 (ix3 (0 : Fin 1) (⟨2, by decide⟩ : Fin 3) q))

/-- Coordinate `o` of every row, spread over the lanes: at `(r, q)` the block's entry `(r, o)`. -/
theorem coordOfRows_apply (g : FVec Ideal S1024x3 .f32) (o : ℕ) (ho : o < 3) (hS : S1024x3.Slices ![0, o] S1024x1)
    (hB : S1024x1.Broadcasts S1024x2048) (r : Fin 1024) (q : Fin 2048) :
    broadcastTo S1024x2048 (extractStridedSlice S1024x1 ![0, o] g hS) hB (ix2 r q) = g (ix2 r (⟨o, ho⟩ : Fin 3)) :=
  (Cert.Keepdims.broadcastTo_a1_ab_apply _ hB r q).trans (slice2_axis1_apply o g hS r (0 : Fin 1) ⟨o, ho⟩ rfl)

/-- Coordinate `o` of every point of the second cloud, spread down the rows: at `(r, q)` its entry `(o, q)`. -/
theorem coordOfCols_apply (s : FVec Ideal S3x2048 .f32) (o : ℕ) (ho : o < 3) (hS : S3x2048.Slices ![o, 0] S1x2048)
    (hB : S1x2048.Broadcasts S1024x2048) (r : Fin 1024) (q : Fin 2048) :
    broadcastTo S1024x2048 (extractStridedSlice S1x2048 ![o, 0] s hS) hB (ix2 r q) = s (ix2 (⟨o, ho⟩ : Fin 3) q) :=
  (broadcastTo_1b_ab_apply _ hB r q).trans (slice2_axis0_apply o s hS (0 : Fin 1) q ⟨o, ho⟩ rfl)

/-- The squared norm of every row, spread over the lanes. -/
theorem sqRows_apply (g : FVec Ideal S1024x3 .f32) (hR : S1024x3.Reduces [1] S1024) (hφ : FKind.Formats .f32)
    (hacc : (0x00000000#32 : BitVec 32) = FKind.add.neutral .f32 hφ) (hC : S1024.ShapeCasts S1024x1)
    (hB : S1024x1.Broadcasts S1024x2048) (r : Fin 1024) (q : Fin 2048) :
    broadcastTo S1024x2048 (shapeCast S1024x1 (multiReduction (F := Ideal) .add [1] S1024 (mulf g g) 0x00000000#32 hR hφ hacc) hC) hB (ix2 r q)
      = ∑ k : Fin 3, g (ix2 r k) * g (ix2 r k) :=
  Cert.Keepdims.rowSumSq_bcast_apply g hR hφ hacc hC hB r q

/-- The squared norm of every point of the second cloud, spread down the rows. -/
theorem sqCols_apply (s : FVec Ideal S3x2048 .f32) (hR : S3x2048.Reduces [0] S2048) (hφ : FKind.Formats .f32)
    (hacc : (0x00000000#32 : BitVec 32) = FKind.add.neutral .f32 hφ) (hC : S2048.ShapeCasts S1x2048)
    (hB : S1x2048.Broadcasts S1024x2048) (r : Fin 1024) (q : Fin 2048) :
    broadcastTo S1024x2048 (shapeCast S1x2048 (multiReduction (F := Ideal) .add [0] S2048 (mulf s s) 0x00000000#32 hR hφ hacc) hC) hB (ix2 r q)
      = ∑ k : Fin 3, s (ix2 k q) * s (ix2 k q) :=
  (broadcastTo_1b_ab_apply _ hB r q).trans
    ((shapeCast_a_1a_apply _ hC (0 : Fin 1) q).trans (Cert.MinOps.rowsSum_apply (mulf s s) _ hR hφ hacc q))

/-- The tile of squared distances, entry by entry. -/
theorem pay6_apply (x0 : Vec Ideal S1x1024x3 .f32) (x1 : Vec Ideal S1x3x2048 .f32) (r : Fin 1024) (q : Fin 2048) :
    k0_pay6 (F := Ideal) x0 x1 (ix2 r q) = tileDist x0 x1 r q := by
  unfold k0_pay6 tileDist
  dsimp only
  simp only [subf_apply, addf_apply, mulf_apply, broadcast_apply,
    coordOfRows_apply _ 0 (by decide), coordOfRows_apply _ 1 (by decide), coordOfRows_apply _ 2 (by decide),
    coordOfCols_apply _ 0 (by decide), coordOfCols_apply _ 1 (by decide), coordOfCols_apply _ 2 (by decide),
    shapeCast_1ab_ab_apply]
  refine congrArg₂ (· - ·) (congrArg₂ (· + ·) ((sqRows_apply _ _ _ _ _ _ r q).trans ?_) ((sqCols_apply _ _ _ _ _ _ r q).trans ?_)) rfl
  · exact Finset.sum_congr rfl fun k _ =>
      congrArg₂ (· * ·) (shapeCast_1ab_ab_apply x0 _ r k) (shapeCast_1ab_ab_apply x0 _ r k)
  · exact Finset.sum_congr rfl fun k _ =>
      congrArg₂ (· * ·) (shapeCast_1ab_ab_apply x1 _ k q) (shapeCast_1ab_ab_apply x1 _ k q)

/-- The tile's lane minimum at row `r`. -/
theorem pay7_apply (x0 : Vec Ideal S1x1024x3 .f32) (x1 : Vec Ideal S1x3x2048 .f32) (r : Fin 1024) :
    k0_pay7 (F := Ideal) x0 x1 (ix2 r (0 : Fin 1))
      = (Finset.univ : Finset (Fin 2048)).fold min ⊤ (fun q => tileDist x0 x1 r q) := by
  unfold k0_pay7
  dsimp only
  refine (Cert.Keepdims.shapeCast_a_a1_apply _ _ r (0 : Fin 1)).trans ?_
  refine (Cert.MinOps.laneMin_apply (k0_pay6 (F := Ideal) x0 x1) _ _ _ _ r).trans ?_
  refine (congrArg (fun z => (Finset.univ : Finset (Fin 2048)).fold min z (fun c => k0_pay6 (F := Ideal) x0 x1 (ix2 r c)))
    Cert.MinOps.posInf_eq_top).trans ?_
  exact congrArg (fun f => (Finset.univ : Finset (Fin 2048)).fold min ⊤ f) (funext fun q => pay6_apply x0 x1 r q)

/-- The tile's minimum down the rows at lane `q`. -/
theorem pay8_apply (x0 : Vec Ideal S1x1024x3 .f32) (x1 : Vec Ideal S1x3x2048 .f32) (q : Fin 2048) :
    k0_pay8 (F := Ideal) x0 x1 (ix2 (0 : Fin 1) q)
      = (Finset.univ : Finset (Fin 1024)).fold min ⊤ (fun r => tileDist x0 x1 r q) := by
  unfold k0_pay8
  dsimp only
  refine (shapeCast_a_1a_apply _ _ (0 : Fin 1) q).trans ?_
  refine (Cert.MinOps.rowsMin_apply (k0_pay6 (F := Ideal) x0 x1) _ _ _ _ q).trans ?_
  refine (congrArg (fun z => (Finset.univ : Finset (Fin 1024)).fold min z (fun r => k0_pay6 (F := Ideal) x0 x1 (ix2 r q)))
    Cert.MinOps.posInf_eq_top).trans ?_
  exact congrArg (fun f => (Finset.univ : Finset (Fin 1024)).fold min ⊤ f) (funext fun r => pay6_apply x0 x1 r q)

/-- The running sum after a point: what it held plus the sum of the point's 1024 lane minima. -/
theorem pay1_apply (v37 : FVec Ideal S1024x1 .f32) (v40 : Vec Ideal S1x1 .f32) :
    k0_pay1 (F := Ideal) v37 v40 (ix2 (0 : Fin 1) (0 : Fin 1)) = v40 (ix2 (0 : Fin 1) (0 : Fin 1)) + ∑ r : Fin 1024, v37 (ix2 r (0 : Fin 1)) := by
  unfold k0_pay1
  dsimp only
  rw [shapeCast_self]
  refine congrArg (v40 (ix2 (0 : Fin 1) (0 : Fin 1)) + ·) ?_
  refine (shapeCast_a_1a_apply _ _ (0 : Fin 1) (0 : Fin 1)).trans ?_
  exact Cert.MinOps.rowsSum_apply v37 _ _ _ _ (0 : Fin 1)

/-- The running minimum after a point, lane by lane: the smaller of what it held and the point's minimum down the rows. -/
theorem pay2_apply (v39 : FVec Ideal S1x2048 .f32) (v47 : Vec Ideal S1x2048 .f32) (q : Fin 2048) :
    k0_pay2 (F := Ideal) v39 v47 (ix2 (0 : Fin 1) q) = min (v47 (ix2 (0 : Fin 1) q)) (v39 (ix2 (0 : Fin 1) q)) := by
  unfold k0_pay2
  rw [shapeCast_self]
  rfl

/-- The result of a batch: the running sum plus the sum of the 2048 running minima. -/
theorem pay3_apply (v55 : Vec Ideal S1x2048 .f32) (v58 : Vec Ideal S1x1 .f32) :
    k0_pay3 (F := Ideal) v55 v58 (ix3 (0 : Fin 1) (0 : Fin 1) (0 : Fin 1))
      = v58 (ix2 (0 : Fin 1) (0 : Fin 1)) + ∑ q : Fin 2048, v55 (ix2 (0 : Fin 1) q) := by
  unfold k0_pay3
  refine (shapeCast_ab_1ab_apply _ _ (0 : Fin 1) (0 : Fin 1) (0 : Fin 1)).trans ?_
  refine congrArg (v58 (ix2 (0 : Fin 1) (0 : Fin 1)) + ·) ?_
  refine (shapeCast_a_1a_apply _ _ (0 : Fin 1) (0 : Fin 1)).trans ?_
  exact Cert.Keepdims.rowSum_apply v55 _ _ _ (0 : Fin 1)

/-- The reset of the running minimum stores `+∞` in every lane. -/
theorem pay4_apply (q : Fin 2048) : k0_pay4 (F := Ideal) (ix2 (0 : Fin 1) q) = ⊤ := by
  unfold k0_pay4
  rw [shapeCast_self]
  exact Cert.MinOps.posInf_eq_top

/-- The reset of the running sum stores `0`. -/
theorem pay5_apply : k0_pay5 (F := Ideal) (ix2 (0 : Fin 1) (0 : Fin 1)) = 0 := by
  unfold k0_pay5
  rw [shapeCast_self]
  exact Ideal.ofBits_zero_f32

end Cert.KernelIdeal.Tile

end
-- ==== Proof.ChamferBlocks.lean ====
/-
  What a grid point's input blocks hold, in terms of the two argument arrays.

  The grid has 64 points, point `t` being tile `t % 8` of batch `t / 8`. The first window's block at `t` is rows
  `(t % 8) * 1024 ..` of batch `t / 8` of the first cloud: its entry `(0, r, k)` is the cloud's `(t / 8, (t % 8) * 1024 + r, k)`.
  The second window stages the second cloud transposed to coordinate-major by the host before the launch, one whole batch
  per block: its entry `(0, k, q)` is the cloud's `(t / 8, q, k)`. The output's block at `t` is entry `(t / 8, 0, 0)`.
-/
import proofs.«165440_j12506944766654_2_alg».proof.Proof.Gen.KernelIdeal.Frame
import Idealize.ShloMosaic.Lib.Pipeline.Value
import Idealize.ShloMosaic.Lib.StableHlo.Run
import Idealize.ShloMosaic.Lib.ValueIdx
import Idealize.ShloMosaic.Lib.ValueLayout
import Idealize.ShloMosaic.Lib.Tactic

noncomputable section

open Idealize.ShloMosaic Idealize.ShloMosaic.TcCoe Idealize.SL.Sem
open Idealize.ShloMosaic.Pipeline (Dat)

namespace Cert.KernelIdeal.Blocks

open Cert.KernelIdeal Cert.KernelIdeal.Gen Idealize.ShloMosaic.ValueIdx

variable (m : (ℓ : Loc nD τ sig) → Buf (Elt Ideal) ℓ)

/-- Where the three windows sit at point `t`: batch `t / 8`; the first also at tile `t % 8` of the rows. -/
theorem index0 : ∀ t : Fin cfg0.N, win0_0.index t (0 : Fin 3) = t.val / 8 ∧ win0_0.index t (1 : Fin 3) = t.val % 8 ∧ win0_0.index t (2 : Fin 3) = 0 :=
  (by decide +kernel : ∀ t : Fin grid0.N, _)
theorem index1 : ∀ t : Fin cfg0.N, win0_1.index t (0 : Fin 3) = t.val / 8 ∧ win0_1.index t (1 : Fin 3) = 0 ∧ win0_1.index t (2 : Fin 3) = 0 :=
  (by decide +kernel : ∀ t : Fin grid0.N, _)
theorem index2 : ∀ t : Fin cfg0.N, win0_2.index t (0 : Fin 3) = t.val / 8 ∧ win0_2.index t (1 : Fin 3) = 0 ∧ win0_2.index t (2 : Fin 3) = 0 :=
  (by decide +kernel : ∀ t : Fin grid0.N, _)

/-- The array the second window stages: the second cloud with its last two axes exchanged, as the host leaves it
    before the launch. -/
theorem staged_second (c : Dev nD) :
    (V m c main_v0 : S8x3x2048.Idx → EReal)
      = transpose S8x3x2048 [0, 2, 1] (m ((c : Thread nD τ).loc main_arg1)) transposes_S8x2048x3_S8x3x2048_0_2_1 := by
  show StableHlo.after hostOps0 (fun b => m (c, b)) (Proc.devRef .tc main_v0) = _
  after_results

/-- The first window's block at `t`: rows `(t % 8) * 1024 ..` of batch `t / 8` of the first cloud. -/
theorem firstBlock_apply (c : Dev nD) (t : Fin cfg0.N) (r : Fin 1024) (k : Fin 3) (b : Fin 8) (i : Fin 8192)
    (hb : b.val = t.val / 8) (hi : i.val = t.val % 8 * 1024 + r.val) :
    (iblk m c 0 t : Vec Ideal S1x1024x3 .f32) (ix3 (0 : Fin 1) r k) = m ((c : Thread nD τ).loc main_arg0) (ix3 b i k) := by
  unfold iblk
  rw [View.read_apply]
  show V m c main_arg0 _ = _
  rw [V_main_arg0]
  refine congrArg (m ((c : Thread nD τ).loc main_arg0)) (funext fun a => Fin.ext ?_)
  obtain ⟨h0, h1, h2⟩ := index0 t
  match a with
  | ⟨0, _⟩ => show win0_0.index t 0 * 1 + 1 * 0 = b.val; rw [h0, hb]; omega
  | ⟨1, _⟩ => show win0_0.index t 1 * 1024 + 1 * r.val = i.val; rw [h1, hi]; omega
  | ⟨2, _⟩ => show win0_0.index t 2 * 3 + 1 * k.val = k.val; rw [h2]; omega

/-- The second window's block at `t`: batch `t / 8` of the second cloud, coordinate-major. -/
theorem secondBlock_apply (c : Dev nD) (t : Fin cfg0.N) (k : Fin 3) (q : Fin 2048) (b : Fin 8) (hb : b.val = t.val / 8) :
    (iblk m c 1 t : Vec Ideal S1x3x2048 .f32) (ix3 (0 : Fin 1) k q) = m ((c : Thread nD τ).loc main_arg1) (ix3 b q k) := by
  unfold iblk
  rw [View.read_apply]
  show V m c main_v0 _ = _
  rw [staged_second]
  refine (congrArg (transpose S8x3x2048 [0, 2, 1] (m ((c : Thread nD τ).loc main_arg1)) transposes_S8x2048x3_S8x3x2048_0_2_1)
    (funext fun a => Fin.ext ?_ : _ = ix3 b k q)).trans (transpose_ix3_021_apply _ _ b k q)
  obtain ⟨h0, h1, h2⟩ := index1 t
  match a with
  | ⟨0, _⟩ => show win0_1.index t 0 * 1 + 1 * 0 = b.val; rw [h0, hb]; omega
  | ⟨1, _⟩ => show win0_1.index t 1 * 3 + 1 * k.val = k.val; rw [h1]; omega
  | ⟨2, _⟩ => show win0_1.index t 2 * 2048 + 1 * q.val = q.val; rw [h2]; omega

end Cert.KernelIdeal.Blocks

end
-- ==== Proof.ChamferPieces.lean ====
/-
  What each of the three kinds of grid point leaves in the two buffers carried from point to point and in the output's
  block, as values.

  A point that opens a batch first resets the running minimum to `+∞` and the running sum to `0`, then updates both from
  its tile; a point inside a batch updates what the point before left; the point that closes a batch also writes the
  output: the updated running sum plus the sum of the updated running minima. Each buffer is written by whole-buffer
  stores, so what it ends holding is the last store's value, in which a load that follows a store reads that store's
  value back.
-/
import proofs.«165440_j12506944766654_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- Opening a batch: the running minimum ends at the smaller of `+∞` and the tile's minimum down the rows. -/
theorem first_min (c : Dev nD) (i : grid0.Coords) (arg2 : Memref sig .tc .vmem S1x1024x3 .f32) (harg2 : arg2.IsWhole) (arg3 : Memref sig .tc .vmem S1x3x2048 .f32) (harg3 : arg3.IsWhole) (arg4 : Memref sig .tc .vmem S1x1x1 .f32) (harg4 : arg4.IsWhole) (arg5 : Memref sig .tc .vmem S1x2048 .f32) (harg5 : arg5.IsWhole) (arg6 : Memref sig .tc .vmem S1x1 .f32) (harg6 : arg6.IsWhole) (hc0 : cond0_0 i) (hc1 : ¬cond0_1 i)
    (x0 : Vec F S1x1024x3 .f32) (x1 : Vec F S1x3x2048 .f32) :
    sout0_A_0 c i arg2 harg2 arg3 harg3 arg4 harg4 arg5 harg5 arg6 harg6 hc0 hc1 x0 x1 = k0_pay2 (k0_pay8 x0 x1) (k0_pay4 (F := F)) := by
  unfold sout0_A_0
  rw [View.read_writes_eq_canon _ _ _ (scover0_A_0 c i arg2 harg2 arg3 harg3 arg4 harg4 arg5 harg5 arg6 harg6 hc0 hc1 x0 x1)]
  unfold kernelRun0_A
  dsimp only
  sl_unfold_words
  simp only [View.canon_cons_unit_zero (S := S1x2048) hz2, View.canon_cons_unit_zero (S := S1x1) hz2,
    View.canon_unit_zero (S := S1x2048) hz2, View.canon_unit_zero (S := S1x1) hz2, View.canon_unit_zero (S := S1x1x1) hz3,
    View.readCov_unit_zero (S := S1x2048) _ hz2, View.readCov_unit_zero (S := S1x1) _ hz2,
    View.readAt_eq_ld, harg2.read_unread, harg3.read_unread, harg5.read_unread, harg6.read_unread,
    View.ld_unit_zero (S := S1x1024x3) hz3, View.ld_unit_zero (S := S1x3x2048) hz3,
    View.ld_unit_zero (S := S1x2048) hz2, View.ld_unit_zero (S := S1x1) hz2]

/-- Opening a batch: the running sum ends at `0` plus the sum of the tile's lane minima. -/
theorem first_sum (c : Dev nD) (i : grid0.Coords) (arg2 : Memref sig .tc .vmem S1x1024x3 .f32) (harg2 : arg2.IsWhole) (arg3 : Memref sig .tc .vmem S1x3x2048 .f32) (harg3 : arg3.IsWhole) (arg4 : Memref sig .tc .vmem S1x1x1 .f32) (harg4 : arg4.IsWhole) (arg5 : Memref sig .tc .vmem S1x2048 .f32) (harg5 : arg5.IsWhole) (arg6 : Memref sig .tc .vmem S1x1 .f32) (harg6 : arg6.IsWhole) (hc0 : cond0_0 i) (hc1 : ¬cond0_1 i)
    (x0 : Vec F S1x1024x3 .f32) (x1 : Vec F S1x3x2048 .f32) :
    sout0_A_1 c i arg2 harg2 arg3 harg3 arg4 harg4 arg5 harg5 arg6 harg6 hc0 hc1 x0 x1 = k0_pay1 (k0_pay7 x0 x1) (k0_pay5 (F := F)) := by
  unfold sout0_A_1
  rw [View.read_writes_eq_canon _ _ _ (scover0_A_1 c i arg2 harg2 arg3 harg3 arg4 harg4 arg5 harg5 arg6 harg6 hc0 hc1 x0 x1)]
  unfold kernelRun0_A
  dsimp only
  sl_unfold_words
  simp only [View.canon_cons_unit_zero (S := S1x2048) hz2, View.canon_cons_unit_zero (S := S1x1) hz2,
    View.canon_unit_zero (S := S1x2048) hz2, View.canon_unit_zero (S := S1x1) hz2, View.canon_unit_zero (S := S1x1x1) hz3,
    View.readCov_unit_zero (S := S1x2048) _ hz2, View.readCov_unit_zero (S := S1x1) _ hz2,
    View.readAt_eq_ld, harg2.read_unread, harg3.read_unread, harg5.read_unread, harg6.read_unread,
    View.ld_unit_zero (S := S1x1024x3) hz3, View.ld_unit_zero (S := S1x3x2048) hz3,
    View.ld_unit_zero (S := S1x2048) hz2, View.ld_unit_zero (S := S1x1) hz2]

/-- Inside a batch: the running minimum is updated from what the point before left. -/
theorem mid_min (c : Dev nD) (i : grid0.Coords) (arg2 : Memref sig .tc .vmem S1x1024x3 .f32) (harg2 : arg2.IsWhole) (arg3 : Memref sig .tc .vmem S1x3x2048 .f32) (harg3 : arg3.IsWhole) (arg4 : Memref sig .tc .vmem S1x1x1 .f32) (harg4 : arg4.IsWhole) (arg5 : Memref sig .tc .vmem S1x2048 .f32) (harg5 : arg5.IsWhole) (arg6 : Memref sig .tc .vmem S1x1 .f32) (harg6 : arg6.IsWhole) (hc0 : ¬cond0_0 i) (hc1 : ¬cond0_1 i)
    (x0 : Vec F S1x1024x3 .f32) (x1 : Vec F S1x3x2048 .f32) (xs0 : Vec F S1x2048 .f32) (xs1 : Vec F S1x1 .f32) :
    sout0_B_0 c i arg2 harg2 arg3 harg3 arg4 harg4 arg5 harg5 arg6 harg6 hc0 hc1 x0 x1 xs0 xs1 = k0_pay2 (k0_pay8 x0 x1) xs0 := by
  unfold sout0_B_0
  rw [View.read_writes_eq_canon _ _ _ (scover0_B_0 c i arg2 harg2 arg3 harg3 arg4 harg4 arg5 harg5 arg6 harg6 hc0 hc1 x0 x1 xs0 xs1)]
  unfold kernelRun0_B
  dsimp only
  sl_unfold_words
  simp only [View.canon_cons_unit_zero (S := S1x2048) hz2, View.canon_cons_unit_zero (S := S1x1) hz2,
    View.canon_unit_zero (S := S1x2048) hz2, View.canon_unit_zero (S := S1x1) hz2, View.canon_unit_zero (S := S1x1x1) hz3,
    View.readCov_unit_zero (S := S1x2048) _ hz2, View.readCov_unit_zero (S := S1x1) _ hz2,
    View.readAt_eq_ld, harg2.read_unread, harg3.read_unread, harg5.read_unread, harg6.read_unread,
    View.ld_unit_zero (S := S1x1024x3) hz3, View.ld_unit_zero (S := S1x3x2048) hz3,
    View.ld_unit_zero (S := S1x2048) hz2, View.ld_unit_zero (S := S1x1) hz2]

/-- Inside a batch: the running sum is updated from what the point before left. -/
theorem mid_sum (c : Dev nD) (i : grid0.Coords) (arg2 : Memref sig .tc .vmem S1x1024x3 .f32) (harg2 : arg2.IsWhole) (arg3 : Memref sig .tc .vmem S1x3x2048 .f32) (harg3 : arg3.IsWhole) (arg4 : Memref sig .tc .vmem S1x1x1 .f32) (harg4 : arg4.IsWhole) (arg5 : Memref sig .tc .vmem S1x2048 .f32) (harg5 : arg5.IsWhole) (arg6 : Memref sig .tc .vmem S1x1 .f32) (harg6 : arg6.IsWhole) (hc0 : ¬cond0_0 i) (hc1 : ¬cond0_1 i)
    (x0 : Vec F S1x1024x3 .f32) (x1 : Vec F S1x3x2048 .f32) (xs0 : Vec F S1x2048 .f32) (xs1 : Vec F S1x1 .f32) :
    sout0_B_1 c i arg2 harg2 arg3 harg3 arg4 harg4 arg5 harg5 arg6 harg6 hc0 hc1 x0 x1 xs0 xs1 = k0_pay1 (k0_pay7 x0 x1) xs1 := by
  unfold sout0_B_1
  rw [View.read_writes_eq_canon _ _ _ (scover0_B_1 c i arg2 harg2 arg3 harg3 arg4 harg4 arg5 harg5 arg6 harg6 hc0 hc1 x0 x1 xs0 xs1)]
  unfold kernelRun0_B
  dsimp only
  sl_unfold_words
  simp only [View.canon_cons_unit_zero (S := S1x2048) hz2, View.canon_cons_unit_zero (S := S1x1) hz2,
    View.canon_unit_zero (S := S1x2048) hz2, View.canon_unit_zero (S := S1x1) hz2, View.canon_unit_zero (S := S1x1x1) hz3,
    View.readCov_unit_zero (S := S1x2048) _ hz2, View.readCov_unit_zero (S := S1x1) _ hz2,
    View.readAt_eq_ld, harg2.read_unread, harg3.read_unread, harg5.read_unread, harg6.read_unread,
    View.ld_unit_zero (S := S1x1024x3) hz3, View.ld_unit_zero (S := S1x3x2048) hz3,
    View.ld_unit_zero (S := S1x2048) hz2, View.ld_unit_zero (S := S1x1) hz2]

/-- Closing a batch: the running minimum is updated as inside a batch. -/
theorem last_min (c : Dev nD) (i : grid0.Coords) (arg2 : Memref sig .tc .vmem S1x1024x3 .f32) (harg2 : arg2.IsWhole) (arg3 : Memref sig .tc .vmem S1x3x2048 .f32) (harg3 : arg3.IsWhole) (arg4 : Memref sig .tc .vmem S1x1x1 .f32) (harg4 : arg4.IsWhole) (arg5 : Memref sig .tc .vmem S1x2048 .f32) (harg5 : arg5.IsWhole) (arg6 : Memref sig .tc .vmem S1x1 .f32) (harg6 : arg6.IsWhole) (hc0 : ¬cond0_0 i) (hc1 : cond0_1 i)
    (x0 : Vec F S1x1024x3 .f32) (x1 : Vec F S1x3x2048 .f32) (xs0 : Vec F S1x2048 .f32) (xs1 : Vec F S1x1 .f32) :
    sout0_C_0 c i arg2 harg2 arg3 harg3 arg4 harg4 arg5 harg5 arg6 harg6 hc0 hc1 x0 x1 xs0 xs1 = k0_pay2 (k0_pay8 x0 x1) xs0 := by
  unfold sout0_C_0
  rw [View.read_writes_eq_canon _ _ _ (scover0_C_0 c i arg2 harg2 arg3 harg3 arg4 harg4 arg5 harg5 arg6 harg6 hc0 hc1 x0 x1 xs0 xs1)]
  unfold kernelRun0_C
  dsimp only
  sl_unfold_words
  simp only [View.canon_cons_unit_zero (S := S1x2048) hz2, View.canon_cons_unit_zero (S := S1x1) hz2,
    View.canon_unit_zero (S := S1x2048) hz2, View.canon_unit_zero (S := S1x1) hz2, View.canon_unit_zero (S := S1x1x1) hz3,
    View.readCov_unit_zero (S := S1x2048) _ hz2, View.readCov_unit_zero (S := S1x1) _ hz2,
    View.readAt_eq_ld, harg2.read_unread, harg3.read_unread, harg5.read_unread, harg6.read_unread,
    View.ld_unit_zero (S := S1x1024x3) hz3, View.ld_unit_zero (S := S1x3x2048) hz3,
    View.ld_unit_zero (S := S1x2048) hz2, View.ld_unit_zero (S := S1x1) hz2]

/-- Closing a batch: the running sum is updated as inside a batch. -/
theorem last_sum (c : Dev nD) (i : grid0.Coords) (arg2 : Memref sig .tc .vmem S1x1024x3 .f32) (harg2 : arg2.IsWhole) (arg3 : Memref sig .tc .vmem S1x3x2048 .f32) (harg3 : arg3.IsWhole) (arg4 : Memref sig .tc .vmem S1x1x1 .f32) (harg4 : arg4.IsWhole) (arg5 : Memref sig .tc .vmem S1x2048 .f32) (harg5 : arg5.IsWhole) (arg6 : Memref sig .tc .vmem S1x1 .f32) (harg6 : arg6.IsWhole) (hc0 : ¬cond0_0 i) (hc1 : cond0_1 i)
    (x0 : Vec F S1x1024x3 .f32) (x1 : Vec F S1x3x2048 .f32) (xs0 : Vec F S1x2048 .f32) (xs1 : Vec F S1x1 .f32) :
    sout0_C_1 c i arg2 harg2 arg3 harg3 arg4 harg4 arg5 harg5 arg6 harg6 hc0 hc1 x0 x1 xs0 xs1 = k0_pay1 (k0_pay7 x0 x1) xs1 := by
  unfold sout0_C_1
  rw [View.read_writes_eq_canon _ _ _ (scover0_C_1 c i arg2 harg2 arg3 harg3 arg4 harg4 arg5 harg5 arg6 harg6 hc0 hc1 x0 x1 xs0 xs1)]
  unfold kernelRun0_C
  dsimp only
  sl_unfold_words
  simp only [View.canon_cons_unit_zero (S := S1x2048) hz2, View.canon_cons_unit_zero (S := S1x1) hz2,
    View.canon_unit_zero (S := S1x2048) hz2, View.canon_unit_zero (S := S1x1) hz2, View.canon_unit_zero (S := S1x1x1) hz3,
    View.readCov_unit_zero (S := S1x2048) _ hz2, View.readCov_unit_zero (S := S1x1) _ hz2,
    View.readAt_eq_ld, harg2.read_unread, harg3.read_unread, harg5.read_unread, harg6.read_unread,
    View.ld_unit_zero (S := S1x1024x3) hz3, View.ld_unit_zero (S := S1x3x2048) hz3,
    View.ld_unit_zero (S := S1x2048) hz2, View.ld_unit_zero (S := S1x1) hz2]

/-- Closing a batch: the output's block is the updated running sum plus the sum of the updated running minima. -/
theorem last_out (c : Dev nD) (i : grid0.Coords) (arg2 : Memref sig .tc .vmem S1x1024x3 .f32) (harg2 : arg2.IsWhole) (arg3 : Memref sig .tc .vmem S1x3x2048 .f32) (harg3 : arg3.IsWhole) (arg4 : Memref sig .tc .vmem S1x1x1 .f32) (harg4 : arg4.IsWhole) (arg5 : Memref sig .tc .vmem S1x2048 .f32) (harg5 : arg5.IsWhole) (arg6 : Memref sig .tc .vmem S1x1 .f32) (harg6 : arg6.IsWhole) (hc0 : ¬cond0_0 i) (hc1 : cond0_1 i)
    (x0 : Vec F S1x1024x3 .f32) (x1 : Vec F S1x3x2048 .f32) (xs0 : Vec F S1x2048 .f32) (xs1 : Vec F S1x1 .f32) :
    out0_C_2 c i arg2 harg2 arg3 harg3 arg4 harg4 arg5 harg5 arg6 harg6 hc0 hc1 x0 x1 xs0 xs1 = k0_pay3 (k0_pay2 (k0_pay8 x0 x1) xs0) (k0_pay1 (k0_pay7 x0 x1) xs1) := by
  unfold out0_C_2
  rw [View.read_writes_eq_canon _ _ _ (cover0_C_2 c i arg2 harg2 arg3 harg3 arg4 harg4 arg5 harg5 arg6 harg6 hc0 hc1 x0 x1 xs0 xs1)]
  unfold kernelRun0_C
  dsimp only
  sl_unfold_words
  simp only [View.canon_cons_unit_zero (S := S1x2048) hz2, View.canon_cons_unit_zero (S := S1x1) hz2,
    View.canon_unit_zero (S := S1x2048) hz2, View.canon_unit_zero (S := S1x1) hz2, View.canon_unit_zero (S := S1x1x1) hz3,
    View.readCov_unit_zero (S := S1x2048) _ hz2, View.readCov_unit_zero (S := S1x1) _ hz2,
    View.readAt_eq_ld, harg2.read_unread, harg3.read_unread, harg5.read_unread, harg6.read_unread,
    View.ld_unit_zero (S := S1x1024x3) hz3, View.ld_unit_zero (S := S1x3x2048) hz3,
    View.ld_unit_zero (S := S1x2048) hz2, View.ld_unit_zero (S := S1x1) hz2]

end Cert.KernelIdeal.Pieces

end
-- ==== Proof.LibSumBlocks.lean ====
/-
  Regrouping a finite sum into consecutive blocks, in any commutative monoid.

  A sum over the first `a * b` naturals is the sum over `a` consecutive blocks of `b` of each block's sum, position `q` of
  block `s` being the natural `s * b + q`; and so is a sum over `Fin n` when `n = a * b`. Only associativity and
  commutativity of the addition are used: in the extended reals the law holds at the infinities too. It is the law
  between a contraction taken whole and the same contraction accumulated block by block along the contracted axis.
-/
import Mathlib.Algebra.BigOperators.Fin

namespace Cert.Lib.SumBlocks

/-- A sum over the first `a * b` naturals is the sum, over `a` consecutive blocks of `b`, of each block's sum. -/
theorem sum_range_blocks {β : Type*} [AddCommMonoid β] (g : ℕ → β) (a b : ℕ) :
    ∑ n ∈ Finset.range (a * b), g n = ∑ s ∈ Finset.range a, ∑ q ∈ Finset.range b, g (s * b + q) := by
  induction a with
  | zero => simp
  | succ a ih => rw [Nat.succ_mul, Finset.sum_range_add, ih, Finset.sum_range_succ]

/-- A function of `n` positions, continued by zero to every natural, so that a position may be named by block number and
    offset without a bound in its type. -/
def onNat {β : Type*} [Zero β] {n : ℕ} (f : Fin n → β) (k : ℕ) : β := if h : k < n then f ⟨k, h⟩ else 0

/-- At a natural below `n` the continuation is the function itself. -/
theorem onNat_of_lt {β : Type*} [Zero β] {n : ℕ} (f : Fin n → β) (k : ℕ) (h : k < n) : onNat f k = f ⟨k, h⟩ :=
  dif_pos h

/-- A sum over `n = a * b` positions is the sum over the `a` blocks of `b` of each block's sum, the block's positions
    indexed by `Fin b`. -/
theorem sum_fin_blocks {β : Type*} [AddCommMonoid β] {n : ℕ} (a b : ℕ) (hn : n = a * b) (f : Fin n → β) :
    ∑ k : Fin n, f k = ∑ s ∈ Finset.range a, ∑ q : Fin b, onNat f (s * b + q.val) := by
  subst hn
  have h1 : ∑ k : Fin (a * b), f k = ∑ k : Fin (a * b), onNat f k.val :=
    Finset.sum_congr rfl fun k _ => (onNat_of_lt f k.val k.isLt).symm
  rw [h1, Fin.sum_univ_eq_sum_range (onNat f) (a * b), sum_range_blocks]
  exact Finset.sum_congr rfl fun s _ => (Fin.sum_univ_eq_sum_range (fun q => onNat f (s * b + q)) b).symm

end Cert.Lib.SumBlocks
-- ==== Proof.LibMinBlocks.lean ====
/-
  A minimum over `n` positions taken block by block, in any linear order with a greatest element.

  The fold of `min` from the greatest element over a finite family is characterised by its lower bounds: `z` is below
  the fold exactly when `z` is below every member. A running minimum over consecutive blocks of `b` positions keeps that
  characterisation block after block: the lower bounds of the first `(n + 1) * b` positions are the lower bounds of the
  first `n * b` that are also lower bounds of block `n`. Two elements with the same lower bounds are equal, which is how a
  running minimum is identified with the minimum taken whole. Only the order is used: in the extended reals the
  statements hold at the infinities too.
-/
import Mathlib.Data.Finset.Fold
import Mathlib.Order.BoundedOrder.Basic
import Mathlib.Data.Fintype.Basic

namespace Cert.Lib.MinBlocks

/-- `z` is below the fold of `min` from the greatest element exactly when it is below every member of the family. -/
theorem le_fold_min_top {α ι : Type*} [LinearOrder α] [OrderTop α] (s : Finset ι) (f : ι → α) (z : α) :
    z ≤ s.fold min ⊤ f ↔ ∀ i ∈ s, z ≤ f i :=
  Iff.trans (Finset.le_fold_min z) ⟨fun h => h.2, fun h => ⟨le_top, h⟩⟩

/-- The same over a whole finite index type. -/
theorem le_fold_min_top_univ {α ι : Type*} [LinearOrder α] [OrderTop α] [Fintype ι] (f : ι → α) (z : α) :
    z ≤ (Finset.univ : Finset ι).fold min ⊤ f ↔ ∀ i, z ≤ f i :=
  (le_fold_min_top Finset.univ f z).trans ⟨fun h i => h i (Finset.mem_univ i), fun h i _ => h i⟩

/-- Two elements with the same lower bounds are equal. -/
theorem eq_of_lower_bounds {α : Type*} [PartialOrder α] {a b : α} (h : ∀ z, z ≤ a ↔ z ≤ b) : a = b :=
  le_antisymm ((h a).mp le_rfl) ((h b).mpr le_rfl)

/-- A property of the first `(n + 1) * b` of `N` positions: it holds of the first `n * b` and of each position `n * b + r`
    of block `n`. -/
theorem forall_lt_succ_block {N : ℕ} (P : Fin N → Prop) (n b : ℕ) (hN : (n + 1) * b ≤ N) :
    (∀ i : Fin N, i.val < (n + 1) * b → P i) ↔
      (∀ i : Fin N, i.val < n * b → P i) ∧
        ∀ r : Fin b, P ⟨n * b + r.val, lt_of_lt_of_le (by rw [Nat.succ_mul]; exact Nat.add_lt_add_left r.isLt _) hN⟩ := by
  have hs : (n + 1) * b = n * b + b := Nat.succ_mul n b
  constructor
  · intro h
    refine ⟨fun i hi => h i (by rw [hs]; exact Nat.lt_add_right _ hi), fun r => h _ ?_⟩
    show n * b + r.val < (n + 1) * b
    rw [hs]; exact Nat.add_lt_add_left r.isLt _
  · rintro ⟨h1, h2⟩ i hi
    by_cases hlt : i.val < n * b
    · exact h1 i hlt
    · have hge : n * b ≤ i.val := Nat.le_of_not_lt hlt
      have hr : i.val - n * b < b := by rw [hs] at hi; exact (Nat.sub_lt_iff_lt_add' hge).mpr hi
      have h3 := h2 ⟨i.val - n * b, hr⟩
      have e : (⟨n * b + (i.val - n * b), lt_of_lt_of_le (by rw [Nat.succ_mul]; exact Nat.add_lt_add_left hr _) hN⟩ : Fin N) = i :=
        Fin.ext (Nat.add_sub_cancel' hge)
      exact e ▸ h3

/-- Before any block nothing is asked. -/
theorem forall_lt_zero_block {N : ℕ} (P : Fin N → Prop) (b : ℕ) : ∀ i : Fin N, i.val < 0 * b → P i := by
  intro i hi; rw [Nat.zero_mul] at hi; exact absurd hi (Nat.not_lt_zero _)

/-- Once the blocks exhaust the positions the bound is no condition. -/
theorem forall_lt_all {N : ℕ} (P : Fin N → Prop) (n b : ℕ) (hN : N ≤ n * b) :
    (∀ i : Fin N, i.val < n * b → P i) ↔ ∀ i : Fin N, P i :=
  ⟨fun h i => h i (lt_of_lt_of_le i.isLt hN), fun h i _ => h i⟩

end Cert.Lib.MinBlocks
-- ==== Proof.ChamferSpec.lean ====
/-
  The quantity both programs compute, and the laws that join their two arrangements of it.

  For two batches of point clouds `x` (8 batches of 8192 points) and `y` (8 batches of 2048 points) in three coordinates,
  the squared distance between point `i` of `x` and point `j` of `y` in batch `b` is taken in its expanded form
  `(|x_i|² + |y_j|²) - 2 · ⟨x_i, y_j⟩`. Each point of `x` keeps its smallest distance to `y` (`rowMin`), each point of `y`
  its smallest distance to `x` (`colMin`); a batch contributes the sum of both families, and the result is the sum over
  the batches divided by 8.

  One program adds the 8192 smallest distances of a batch in eight runs of 1024 and keeps a running minimum over the same
  eight runs; the other takes every sum and minimum whole. The sum side is a regrouping of a finite sum into consecutive
  blocks; the minimum side is stated through lower bounds: the running minimum after `n` runs is the element whose lower
  bounds are exactly the lower bounds of the first `n * 1024` distances. Both hold on all extended reals: nothing here asks
  the inputs to be finite.
-/
import Idealize.ShloMosaic.PureOps.Ideal.Laws
import Idealize.ShloMosaic.Lib.ValueIdx
import proofs.«165440_j12506944766654_2_alg».proof.Proof.LibSumBlocks
import proofs.«165440_j12506944766654_2_alg».proof.Proof.LibMinBlocks

noncomputable section

namespace Cert.Chamfer

open Idealize.ShloMosaic Idealize.ShloMosaic.ValueIdx Cert.Lib

/-- A batch of clouds of 8192 points, and one of 2048 points, entry by entry on the extended reals. -/
abbrev CloudA : Type := (⟨3, ![8, 8192, 3]⟩ : Shape).Idx → EReal
abbrev CloudB : Type := (⟨3, ![8, 2048, 3]⟩ : Shape).Idx → EReal

/-- The factor of the cross term and the number of batches, as the programs spell them. -/
abbrev two : EReal := Ideal.ofBits .f32 0x40000000#32
abbrev eight : EReal := Ideal.ofBits .f32 0x41000000#32

variable (x : CloudA) (y : CloudB)

/-- The squared distance between point `i` of `x` and point `j` of `y` in batch `b`, expanded. -/
def sqDist (b : Fin 8) (i : Fin 8192) (j : Fin 2048) : EReal :=
  ((∑ k : Fin 3, x (ix3 b i k) * x (ix3 b i k)) + ∑ k : Fin 3, y (ix3 b j k) * y (ix3 b j k))
    - two * ∑ k : Fin 3, x (ix3 b i k) * y (ix3 b j k)

/-- The smallest distance from point `i` of `x` to the points of `y`. -/
def rowMin (b : Fin 8) (i : Fin 8192) : EReal := (Finset.univ : Finset (Fin 2048)).fold min ⊤ fun j => sqDist x y b i j

/-- The smallest distance from point `j` of `y` to the points of `x`. -/
def colMin (b : Fin 8) (j : Fin 2048) : EReal := (Finset.univ : Finset (Fin 8192)).fold min ⊤ fun i => sqDist x y b i j

/-- What batch `b` contributes. -/
def perBatch (b : Fin 8) : EReal := (∑ i : Fin 8192, rowMin x y b i) + ∑ j : Fin 2048, colMin x y b j

/-- The result: the batches' contributions summed, divided by 8. -/
def total : EReal := Ideal.div (∑ b : Fin 8, perBatch x y b) eight

/-- Row `r` of run `n` of the eight runs of 1024 rows. -/
def rowOf (n : ℕ) (hn : n < 8) (r : Fin 1024) : Fin 8192 := ⟨n * 1024 + r.val, by have := r.isLt; omega⟩

/-! ## The sum of the smallest row distances, run by run -/

/-- The sum of the smallest distances of the first `n` runs of rows. -/
def rowPartial (b : Fin 8) (n : ℕ) : EReal :=
  ∑ s ∈ Finset.range n, ∑ q : Fin 1024, SumBlocks.onNat (rowMin x y b) (s * 1024 + q.val)

theorem rowPartial_zero (b : Fin 8) : rowPartial x y b 0 = 0 := Finset.sum_range_zero _

/-- One more run adds the sum of its 1024 smallest distances. -/
theorem rowPartial_succ (b : Fin 8) (n : ℕ) (hn : n < 8) :
    rowPartial x y b (n + 1) = rowPartial x y b n + ∑ r : Fin 1024, rowMin x y b (rowOf n hn r) := by
  unfold rowPartial
  rw [Finset.sum_range_succ]
  refine congrArg (_ + ·) (Finset.sum_congr rfl fun r _ => ?_)
  exact SumBlocks.onNat_of_lt (rowMin x y b) (n * 1024 + r.val) (rowOf n hn r).isLt

/-- After the eight runs it is the whole sum. -/
theorem rowPartial_all (b : Fin 8) : rowPartial x y b 8 = ∑ i : Fin 8192, rowMin x y b i :=
  (SumBlocks.sum_fin_blocks 8 1024 rfl (rowMin x y b)).symm

/-! ## The smallest column distance, run by run -/

/-- `v` is the smallest of the distances from point `j` of `y` to the first `n * 1024` points of `x`: its lower bounds are
    exactly the common lower bounds of those distances. -/
def ColBound (b : Fin 8) (j : Fin 2048) (n : ℕ) (v : EReal) : Prop :=
  ∀ z : EReal, z ≤ v ↔ ∀ i : Fin 8192, i.val < n * 1024 → z ≤ sqDist x y b i j

/-- Before the first run the greatest element bounds nothing. -/
theorem colBound_zero (b : Fin 8) (j : Fin 2048) : ColBound x y b j 0 ⊤ :=
  fun z => ⟨fun _ => MinBlocks.forall_lt_zero_block _ 1024, fun _ => le_top⟩

/-- One more run: the smaller of what was held and the run's own minimum. -/
theorem colBound_succ (b : Fin 8) (j : Fin 2048) (n : ℕ) (hn : n < 8) (v : EReal) (h : ColBound x y b j n v) :
    ColBound x y b j (n + 1)
      (min v ((Finset.univ : Finset (Fin 1024)).fold min ⊤ fun r => sqDist x y b (rowOf n hn r) j)) := by
  intro z
  rw [le_min_iff, h z, MinBlocks.le_fold_min_top_univ]
  exact (MinBlocks.forall_lt_succ_block (fun i => z ≤ sqDist x y b i j) n 1024 (by omega)).symm

/-- After the eight runs it is the smallest of all 8192 distances. -/
theorem colBound_all (b : Fin 8) (j : Fin 2048) (v : EReal) (h : ColBound x y b j 8 v) : v = colMin x y b j :=
  MinBlocks.eq_of_lower_bounds fun z =>
    (h z).trans (((MinBlocks.forall_lt_all (fun i => z ≤ sqDist x y b i j) 8 1024 (by decide)).trans
      (MinBlocks.le_fold_min_top_univ _ z).symm))

/-! ## The reference's arrangement -/

/-- The two families summed over every batch and point, each from a zero, then added: the batches' contributions
    summed. -/
theorem sums_regrouped (z : EReal) (hz : z = 0) :
    (z + ∑ b : Fin 8, ∑ i : Fin 8192, rowMin x y b i) + (z + ∑ b : Fin 8, ∑ j : Fin 2048, colMin x y b j)
      = ∑ b : Fin 8, perBatch x y b := by
  subst hz
  rw [zero_add, zero_add, ← Finset.sum_add_distrib]
  rfl

end Cert.Chamfer

end
-- ==== Proof.ChamferCarry.lean ====
/-
  What the two carried buffers and the output's block hold after every grid point.

  Point `t` is run `t % 8` of batch `t / 8`. By induction on the run inside a batch: after run `n` the running minimum at
  lane `q` is the smallest of the distances from point `q` of the second cloud to the first `(n + 1) * 1024` points of the
  first cloud (stated through lower bounds), and the running sum is the sum of the smallest row distances of those
  `(n + 1) * 1024` points. The run that opens a batch starts both from their resets; every other run starts from what the
  run before left. After the eighth run the output's block holds the batch's contribution.
-/
import proofs.«165440_j12506944766654_2_alg».proof.Proof.ChamferTile
import proofs.«165440_j12506944766654_2_alg».proof.Proof.ChamferBlocks
import proofs.«165440_j12506944766654_2_alg».proof.Proof.ChamferPieces
import proofs.«165440_j12506944766654_2_alg».proof.Proof.ChamferSpec

noncomputable section

open Idealize.ShloMosaic Idealize.ShloMosaic.TcCoe Idealize.SL.Sem
open Idealize.ShloMosaic.Pipeline (Dat)

namespace Cert.KernelIdeal.Carry

open Cert.KernelIdeal Cert.KernelIdeal.Gen Idealize.ShloMosaic.ValueIdx Cert.Chamfer

variable (m : (ℓ : Loc nD τ sig) → Buf (Elt Ideal) ℓ)

/-- The two clouds as launched. -/
abbrev cloudA (c : Dev nD) : CloudA := m ((c : Thread nD τ).loc main_arg0)
abbrev cloudB (c : Dev nD) : CloudB := m ((c : Thread nD τ).loc main_arg1)

/-- The two input blocks at a point. -/
abbrev blkA (c : Dev nD) (t : Fin cfg0.N) : Vec Ideal S1x1024x3 .f32 := iblk m c 0 t
abbrev blkB (c : Dev nD) (t : Fin cfg0.N) : Vec Ideal S1x3x2048 .f32 := iblk m c 1 t

/-- What the running minimum, the running sum and the output's block hold after point `t`. -/
def minAt (c : Dev nD) (t : Fin cfg0.N) : Vec Ideal S1x2048 .f32 := (outsAt0 m c t.val t.isLt).2.1
def sumAt (c : Dev nD) (t : Fin cfg0.N) : Vec Ideal S1x1 .f32 := (outsAt0 m c t.val t.isLt).2.2
def outAt (c : Dev nD) (t : Fin cfg0.N) : Vec Ideal S1x1x1 .f32 := (outsAt0 m c t.val t.isLt).1

/-- The point before `t`. -/
def prev (t : Fin cfg0.N) : Fin cfg0.N := ⟨t.val - 1, Nat.lt_of_le_of_lt (Nat.sub_le _ _) t.isLt⟩

/-! ## The tile at a point is a run of rows of the distance table -/

theorem tile_eq_dist (c : Dev nD) (t : Fin cfg0.N) (b : Fin 8) (hb : b.val = t.val / 8) (n : ℕ) (hn : n < 8)
    (htn : t.val % 8 = n) (r : Fin 1024) (q : Fin 2048) :
    Tile.tileDist (blkA m c t) (blkB m c t) r q = sqDist (cloudA m c) (cloudB m c) b (rowOf n hn r) q := by
  subst htn
  have ha : ∀ k : Fin 3, blkA m c t (ix3 (0 : Fin 1) r k) = cloudA m c (ix3 b (rowOf (t.val % 8) hn r) k) :=
    fun k => Blocks.firstBlock_apply m c t r k b (rowOf (t.val % 8) hn r) hb rfl
  have hk : ∀ k : Fin 3, blkB m c t (ix3 (0 : Fin 1) k q) = cloudB m c (ix3 b q k) :=
    fun k => Blocks.secondBlock_apply m c t k q b hb
  unfold Tile.tileDist sqDist
  rw [Fin.sum_univ_three (fun k => cloudA m c (ix3 b (rowOf (t.val % 8) hn r) k) * cloudB m c (ix3 b q k))]
  simp only [ha, hk]
  rfl

/-! ## One run's update, on values -/

/-- The running minimum after a run whose tile is run `n` of the table. -/
theorem min_step (x : CloudA) (y : CloudB) (b : Fin 8) (n : ℕ) (hn : n < 8) (x0 : Vec Ideal S1x1024x3 .f32)
    (x1 : Vec Ideal S1x3x2048 .f32) (htile : ∀ r q, Tile.tileDist x0 x1 r q = sqDist x y b (rowOf n hn r) q)
    (xs0 : Vec Ideal S1x2048 .f32) (q : Fin 2048) (h : ColBound x y b q n (xs0 (ix2 (0 : Fin 1) q))) :
    ColBound x y b q (n + 1) (k0_pay2 (F := Ideal) (k0_pay8 x0 x1) xs0 (ix2 (0 : Fin 1) q)) := by
  rw [Tile.pay2_apply, Tile.pay8_apply,
    show (fun r => Tile.tileDist x0 x1 r q) = fun r => sqDist x y b (rowOf n hn r) q from funext fun r => htile r q]
  exact colBound_succ x y b q n hn _ h

/-- The running sum after a run whose tile is run `n` of the table. -/
theorem sum_step (x : CloudA) (y : CloudB) (b : Fin 8) (n : ℕ) (hn : n < 8) (x0 : Vec Ideal S1x1024x3 .f32)
    (x1 : Vec Ideal S1x3x2048 .f32) (htile : ∀ r q, Tile.tileDist x0 x1 r q = sqDist x y b (rowOf n hn r) q)
    (xs1 : Vec Ideal S1x1 .f32) (h : xs1 (ix2 (0 : Fin 1) (0 : Fin 1)) = rowPartial x y b n) :
    k0_pay1 (F := Ideal) (k0_pay7 x0 x1) xs1 (ix2 (0 : Fin 1) (0 : Fin 1)) = rowPartial x y b (n + 1) := by
  rw [Tile.pay1_apply, h, rowPartial_succ x y b n hn]
  refine congrArg (_ + ·) (Finset.sum_congr rfl fun r _ => ?_)
  rw [Tile.pay7_apply]
  exact congrArg (fun f => (Finset.univ : Finset (Fin 2048)).fold min ⊤ f) (funext fun q => htile r q)

/-! ## The three kinds of point -/

/-- The point that opens a batch. -/
theorem open_eqs (c : Dev nD) (t : Fin cfg0.N) (h0 : t.val % 8 = 0) :
    minAt m c t = k0_pay2 (k0_pay8 (blkA m c t) (blkB m c t)) (k0_pay4 (F := Ideal))
      ∧ sumAt m c t = k0_pay1 (k0_pay7 (blkA m c t) (blkB m c t)) (k0_pay5 (F := Ideal)) := by
  have h1 : ¬t.val % 8 = 7 := by omega
  show (outsAt0 m c t.val t.isLt).2.1 = _ ∧ (outsAt0 m c t.val t.isLt).2.2 = _
  rw [outsAt0_A m c t h0 h1]
  dsimp only
  exact ⟨Pieces.first_min (F := Ideal) c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (iblk m c 0 t) (iblk m c 1 t),
    Pieces.first_sum (F := Ideal) c (grid0.coords t) (ms0_0 t) (hs0_0 t) (ms0_1 t) (hs0_1 t) (ms0_2 t) (hs0_2 t) scM0_0 (Memref.isWhole_whole _) scM0_1 (Memref.isWhole_whole _) ((hcond0_0 t).mpr h0) (fun h => h1 ((hcond0_1 t).mp h)) (iblk m c 0 t) (iblk m c 1 t)⟩

/-- Every other point updates what the point before left. -/
theorem later_eqs (c : Dev nD) (t : Fin cfg0.N) (h0 : ¬t.val % 8 = 0) :
    minAt m c t = k0_pay2 (k0_pay8 (blkA m c t) (blkB m c t)) (minAt m c (prev t))
      ∧ sumAt m c t = k0_pay1 (k0_pay7 (blkA m c t) (blkB m c t)) (sumAt m c (prev t)) := by
  by_cases h1 : t.val % 8 = 7
  · show (outsAt0 m c t.val t.isLt).2.1 = _ ∧ (outsAt0 m c t.val t.isLt).2.2 = _
    rw [outsAt0_C m c t h0 h1]
    dsimp only
    exact ⟨Pieces.last_min (F := Ideal) c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2,
      Pieces.last_sum (F := Ideal) c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2⟩
  · show (outsAt0 m c t.val t.isLt).2.1 = _ ∧ (outsAt0 m c t.val t.isLt).2.2 = _
    rw [outsAt0_B m c t h0 h1]
    dsimp only
    exact ⟨Pieces.mid_min (F := Ideal) c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2,
      Pieces.mid_sum (F := Ideal) c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2⟩

/-- The point that closes a batch writes the output from the two buffers as it has just updated them. -/
theorem close_eq (c : Dev nD) (t : Fin cfg0.N) (h1 : t.val % 8 = 7) :
    outAt m c t = k0_pay3 (minAt m c t) (sumAt m c t) := by
  have h0 : ¬t.val % 8 = 0 := by omega
  obtain ⟨e1, e2⟩ := later_eqs m c t h0
  rw [e1, e2]
  show (outsAt0 m c t.val t.isLt).1 = _
  rw [outsAt0_C m c t h0 h1]
  dsimp only
  exact Pieces.last_out (F := Ideal) c (grid0.coords t) (ms0_0 t) (hs0_0 t) (ms0_1 t) (hs0_1 t) (ms0_2 t) (hs0_2 t) scM0_0 (Memref.isWhole_whole _) scM0_1 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2

/-! ## The induction over the runs of a batch -/

/-- After run `n` of batch `b`: the running minimum bounds exactly what the first `(n + 1) * 1024` rows bound, and the
    running sum is their partial sum. -/
theorem carried (c : Dev nD) (b : Fin 8) : ∀ (n : ℕ) (t : Fin cfg0.N), b.val = t.val / 8 → t.val % 8 = n →
    (∀ q : Fin 2048, ColBound (cloudA m c) (cloudB m c) b q (n + 1) (minAt m c t (ix2 (0 : Fin 1) q)))
      ∧ sumAt m c t (ix2 (0 : Fin 1) (0 : Fin 1)) = rowPartial (cloudA m c) (cloudB m c) b (n + 1)
  | 0, t, hb, hn => by
    obtain ⟨e1, e2⟩ := open_eqs m c t hn
    have htile := tile_eq_dist m c t b hb 0 (by decide) hn
    refine ⟨fun q => ?_, ?_⟩
    · rw [e1]
      refine min_step _ _ b 0 (by decide) _ _ htile _ q ?_
      rw [Tile.pay4_apply]
      exact colBound_zero _ _ b q
    · rw [e2]
      refine sum_step _ _ b 0 (by decide) _ _ htile _ ?_
      rw [Tile.pay5_apply, rowPartial_zero]
  | n + 1, t, hb, hn => by
    have hN : t.val < 64 := lt_of_lt_of_eq t.isLt (show cfg0.N = 64 from N_0)
    have hn8 : n + 1 < 8 := by omega
    obtain ⟨e1, e2⟩ := later_eqs m c t (by omega)
    obtain ⟨i1, i2⟩ := carried c b n (prev t) (by show b.val = (t.val - 1) / 8; omega) (by show (t.val - 1) % 8 = n; omega)
    have htile := tile_eq_dist m c t b hb (n + 1) hn8 hn
    refine ⟨fun q => ?_, ?_⟩
    · rw [e1]
      exact min_step _ _ b (n + 1) hn8 _ _ htile _ q (i1 q)
    · rw [e2]
      exact sum_step _ _ b (n + 1) hn8 _ _ htile _ i2

/-- After the run that closes batch `b` the output's block holds the batch's contribution. -/
theorem closed (c : Dev nD) (b : Fin 8) (t : Fin cfg0.N) (hb : b.val = t.val / 8) (h7 : t.val % 8 = 7) :
    outAt m c t (ix3 (0 : Fin 1) (0 : Fin 1) (0 : Fin 1)) = perBatch (cloudA m c) (cloudB m c) b := by
  obtain ⟨i1, i2⟩ := carried m c b 7 t hb h7
  rw [close_eq m c t h7, Tile.pay3_apply, i2, rowPartial_all]
  unfold perBatch
  exact congrArg (_ + ·) (Finset.sum_congr rfl fun q _ => colBound_all _ _ b q _ (i1 q))

end Cert.KernelIdeal.Carry

end
-- ==== Proof.ChamferKernel.lean ====
/-
  The kernel's result.

  The output array has one entry per batch. It is written back once per batch, by the point that closes the batch, whose
  block is the batch's one entry; so after the launch entry `(b, 0, 0)` holds batch `b`'s contribution. The host then sums
  the eight entries from a zero and divides by 8: `total` of the two clouds.
-/
import proofs.«165440_j12506944766654_2_alg».proof.Proof.ChamferCarry
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem
open Idealize.ShloMosaic.Pipeline (Dat)

namespace Cert.KernelIdeal.Out

open Cert.KernelIdeal Cert.KernelIdeal.Gen Idealize.ShloMosaic.ValueIdx Cert.Chamfer Cert.KernelIdeal.Carry

variable (m : (ℓ : Loc nD τ sig) → Buf (Elt Ideal) ℓ) (ρ : Dev nD → PrngReg)

/-- The output array after the launch: entry `(b, 0, 0)` is batch `b`'s contribution. -/
def outArr (c : Dev nD) : S8x1x1.Idx → EReal :=
  fun j => perBatch (cloudA m c) (cloudB m c) (⟨(j 0).val, (j 0).isLt⟩ : Fin 8)

/-- What a closing point writes back is its block of that array. -/
theorem flushed_eq (c : Dev nD) (t : Fin cfg0.N) (hf : (cfg0.win 2).flush t = true) :
    (dats m 0 c).flushed 2 t = ((cfg0.win 2).blk t).view.read (Elt Ideal) (outArr m c) := by
  have h7 : t.val % 8 = 7 := (flush0_2 t).mp hf
  have hN : t.val < 64 := lt_of_lt_of_eq t.isLt (show cfg0.N = 64 from N_0)
  show (cfg0.win 2).cut (grid0.coords t) ((dats m 0 c).after 2 t) = _
  rw [after0_2]
  funext y
  obtain ⟨i0, i1, i2⟩ := Blocks.index2 t
  have hy : y = ix3 (0 : Fin 1) (0 : Fin 1) (0 : Fin 1) := funext fun a => by
    match a with
    | ⟨0, _⟩ => exact Subsingleton.elim (α := Fin 1) _ _
    | ⟨1, _⟩ => exact Subsingleton.elim (α := Fin 1) _ _
    | ⟨2, _⟩ => exact Subsingleton.elim (α := Fin 1) _ _
  show outAt m c t y = outArr m c (((cfg0.win 2).blk t).view.emb y)
  rw [hy, closed m c (⟨t.val / 8, by omega⟩ : Fin 8) t rfl h7]
  unfold outArr
  refine congrArg (perBatch (cloudA m c) (cloudB m c)) (Fin.ext ?_)
  show t.val / 8 = win0_2.index t 0 * 1 + 1 * 0
  rw [i0]; omega

/-- An entry of the output array is in point `t`'s block iff each coordinate is in the block's range on its axis. -/
theorem mem_blk (t : Fin cfg0.N) (i : S8x1x1.Idx) :
    i ∈ ((cfg0.win 2).blk t).view.set ↔
      ∀ a : Fin 3, win0_2.index t a * S1x1x1.size a ≤ (i a).val ∧ (i a).val < win0_2.index t a * S1x1x1.size a + S1x1x1.size a := by
  show i ∈ ((View.whole main_v1).slice (win0_2.rect t)).set ↔ _
  rw [View.set_slice_whole, Rect.mem_set_unit]
  exact Iff.rfl

/-- Entry `(b, 0, 0)` is in the block of the point that closes batch `b`. -/
theorem cover (i : S8x1x1.Idx) : ∃ t : Fin cfg0.N, (cfg0.win 2).flush t = true ∧ i ∈ ((cfg0.win 2).blk t).view.set := by
  have hi0 : (i 0).val < 8 := (i 0).isLt
  have hi1 : (i 1).val < 1 := (i 1).isLt
  have hi2 : (i 2).val < 1 := (i 2).isLt
  have hN : cfg0.N = 64 := N_0
  obtain ⟨t, ht⟩ : ∃ t : Fin cfg0.N, t.val = (i 0).val * 8 + 7 := ⟨⟨(i 0).val * 8 + 7, by omega⟩, rfl⟩
  refine ⟨t, (flush0_2 t).mpr (by omega), ?_⟩
  rw [mem_blk]
  obtain ⟨i0, i1, i2⟩ := Blocks.index2 t
  intro a
  match a with
  | ⟨0, _⟩ => show win0_2.index t 0 * 1 ≤ (i 0).val ∧ (i 0).val < win0_2.index t 0 * 1 + 1; rw [i0]; omega
  | ⟨1, _⟩ => show win0_2.index t 1 * 1 ≤ (i 1).val ∧ (i 1).val < win0_2.index t 1 * 1 + 1; rw [i1]; omega
  | ⟨2, _⟩ => show win0_2.index t 2 * 1 ≤ (i 2).val ∧ (i 2).val < win0_2.index t 2 * 1 + 1; rw [i2]; omega

/-- So the output array ends holding the batches' contributions. -/
theorem final (c : Dev nD) : (dats m 0 c).arrAt 2 cfg0.N = outArr m c :=
  (dats m 0 c).arrAt_eq_of_cover 2 (outArr m c) (flushed_eq m c) cover

/-- The host's lines after the launch: the eight entries summed from a zero, divided by 8. -/
theorem tail_eq (c : Dev nD) :
    Pipeline.afterTail₀ cfgs (dats m) 0 (V0 m) [hostOps1] c main_v3 = fun _ => total (cloudA m c) (cloudB m c) := by
  unfold Pipeline.afterTail₀
  show StableHlo.after hostOps1 _ (Proc.devRef .tc main_v3) = _
  after_results
  have hA : Pipeline.withArrays (cfgs 0).spec c (V0 m c) (fun w => (dats m 0 c).arrAt w (cfgs 0).N) (Proc.devRef .tc main_v1)
      = outArr m c :=
    (Pipeline.withArrays_arr spec0 launch0.win.arr_inj c _ _ 2).trans (final m c)
  rw [hA]
  funext x
  have hs : Host.reduceAdd (F := Ideal) (outArr m c) (constant (F := Ideal) S_ .f32 0x00000000#32) reducesTo_S8x1x1_S_d0_1_2 h_S_ x
      = ∑ b : Fin 8, perBatch (cloudA m c) (cloudB m c) b := by
    simp only [Host.reduceAdd, Ideal.hostReduceAdd_def]
    rw [Ideal.hostReduceAdd_total reducesTo_S8x1x1_S_d0_1_2 (fun b => b.elim0) (outArr m c) _ x, Cert.MinOps.sum_idx_n11]
    show Ideal.ofBits .f32 0x00000000#32 + _ = _
    rw [Ideal.ofBits_zero_f32, zero_add]
    rfl
  show Ideal.div (Host.reduceAdd (F := Ideal) (outArr m c) (constant (F := Ideal) S_ .f32 0x00000000#32) reducesTo_S8x1x1_S_d0_1_2 h_S_ x)
      (Ideal.ofBits .f32 0x41000000#32) = _
  rw [hs]
  rfl

/-- The kernel's run, read: its result is `total` of the two clouds as launched, and both clouds end unchanged. -/
theorem run : θ_run defs (onTc (τ := τ) (main (F := Ideal))) ⟨m, fun _ => 0, ρ⟩ fun r => ∀ c : Dev nD,
      r.2.mem ((c.tc : Thread nD τ).loc main_v3) = (fun _ => total (cloudA m c) (cloudB m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v3 (Pipeline.mem_restRefs_of main_v3 (by decide) (by decide))).trans (tail_eq m c),
        ((h c).1 0).trans (((dats m 0 c).arrAt_in 0 rfl _).trans ((A_eq m c 0).trans (V_main_arg0 m c))),
        ((h c).2 main_arg1 (Pipeline.mem_restRefs_of main_arg1 (by decide) (by decide))).trans (W_main_arg1 m (dats m) c)⟩)
    (run_main m ρ)

end Cert.KernelIdeal.Out

end
-- ==== Proof.ChamferRef.lean ====
/-
  The reference computes `total`.

  Its distance table is the expanded squared distance entry by entry; its minimum over the last axis is each point's
  smallest distance to the second cloud, its minimum over the middle axis each point's smallest distance to the first;
  the two families are summed over every batch and point, each from a zero, added, and divided by 8: the batches'
  contributions summed and divided by 8.
-/
import proofs.«165440_j12506944766654_2_alg».proof.Proof.Gen.ReferenceIdeal.Read
import proofs.«165440_j12506944766654_2_alg».proof.Proof.ChamferSpec
import proofs.«165440_j12506944766654_2_alg».proof.Proof.LibMinOps

noncomputable section

namespace Cert.ReferenceIdeal.RefValue

open Cert.ReferenceIdeal Cert.ReferenceIdeal.Gen Cert.ReferenceIdeal.Read Idealize.ShloMosaic Idealize.ShloMosaic.ValueIdx Cert.Chamfer

/-! ## The reference's index maps at coordinates -/

theorem idx_sqA (b : Fin 8) (i : Fin 8192) (j : Fin 2048) (k : Fin 3) :
    idx_main_v1 (idx_main_v5 (idx_main_v7 (ix3 b i j))) k = ix3 b i k :=
  funext fun a => Fin.ext (by match a with | ⟨0, _⟩ => rfl | ⟨1, _⟩ => rfl | ⟨2, _⟩ => rfl)

theorem idx_sqB (b : Fin 8) (i : Fin 8192) (j : Fin 2048) (k : Fin 3) :
    idx_main_v3 (idx_main_v6 (idx_main_v8 (ix3 b i j))) k = ix3 b j k :=
  funext fun a => Fin.ext (by match a with | ⟨0, _⟩ => rfl | ⟨1, _⟩ => rfl | ⟨2, _⟩ => rfl)

theorem idx_crossA (b : Fin 8) (i : Fin 8192) (j : Fin 2048) (k : Fin 3) : lidx_main_v4 (ix3 b i j) k = ix3 b i k :=
  funext fun a => Fin.ext (by match a with | ⟨0, _⟩ => rfl | ⟨1, _⟩ => rfl | ⟨2, _⟩ => rfl)

theorem idx_crossB (b : Fin 8) (i : Fin 8192) (j : Fin 2048) (k : Fin 3) : ridx_main_v4 (ix3 b i j) k = ix3 b j k :=
  funext fun a => Fin.ext (by match a with | ⟨0, _⟩ => rfl | ⟨1, _⟩ => rfl | ⟨2, _⟩ => rfl)

variable (x0 : (⟨S8x8192x3, .f32⟩ : BufTy).Contents (Elt Ideal)) (x1 : (⟨S8x2048x3, .f32⟩ : BufTy).Contents (Elt Ideal))

/-- The reference's distance table, entry by entry. -/
theorem table_apply (b : Fin 8) (i : Fin 8192) (j : Fin 2048) :
    val_main_v12 (F := Ideal) x0 x1 (ix3 b i j) = sqDist x0 x1 b i j := by
  rw [val_main_v12_apply, val_main_v9_apply, val_main_v7_apply, val_main_v5_apply, val_main_v1_apply, val_main_v8_apply,
    val_main_v6_apply, val_main_v3_apply, val_main_v11_apply, val_main_v10_apply, val_main_v4_apply]
  simp only [idx_sqA, idx_sqB, idx_crossA, idx_crossB, val_main_v0_apply, val_main_v2_apply, val_main_cst_apply,
    val_main_cst_0_apply, val_main_cst_1_apply, Ideal.subf_def, Ideal.addf_def, Ideal.mulf_def, Ideal.ofBits_def,
    Ideal.ofBits_zero_f32, zero_add]
  rfl

/-- Its minimum over the last axis: each point's smallest distance to the second cloud. -/
theorem rowMin_apply (b : Fin 8) (i : Fin 8192) : val_main_v13 (F := Ideal) x0 x1 (ix2 b i) = rowMin x0 x1 b i := by
  unfold val_main_v13 rowMin
  refine (Cert.MinOps.hostLastMin_apply (val_main_v12 (F := Ideal) x0 x1) (val_main_cst_2 (F := Ideal)) _ (by decide) _ b i).trans ?_
  refine (congrArg (fun z => (Finset.univ : Finset (Fin 2048)).fold min z (fun c => val_main_v12 (F := Ideal) x0 x1 (ix3 b i c)))
    (show val_main_cst_2 (F := Ideal) (Shape.Idx.first h_S_) = ⊤ from Cert.MinOps.posInf_eq_top)).trans ?_
  exact congrArg (fun f => (Finset.univ : Finset (Fin 2048)).fold min ⊤ f) (funext fun j => table_apply x0 x1 b i j)

/-- Its minimum over the middle axis: each point's smallest distance to the first cloud. -/
theorem colMin_apply (b : Fin 8) (j : Fin 2048) : val_main_v14 (F := Ideal) x0 x1 (ix2 b j) = colMin x0 x1 b j := by
  unfold val_main_v14 colMin
  refine (Cert.MinOps.hostMidMin_apply (val_main_v12 (F := Ideal) x0 x1) (val_main_cst_3 (F := Ideal)) _ (by decide) _ b j).trans ?_
  refine (congrArg (fun z => (Finset.univ : Finset (Fin 8192)).fold min z (fun p => val_main_v12 (F := Ideal) x0 x1 (ix3 b p j)))
    (show val_main_cst_3 (F := Ideal) (Shape.Idx.first h_S_) = ⊤ from Cert.MinOps.posInf_eq_top)).trans ?_
  exact congrArg (fun f => (Finset.univ : Finset (Fin 8192)).fold min ⊤ f) (funext fun i => table_apply x0 x1 b i j)

/-- The reference's result is `total` of its two arguments. -/
theorem result_eq : val_main_v18 (F := Ideal) x0 x1 = fun _ => total x0 x1 := by
  funext i
  rw [val_main_v18_apply, val_main_v17_apply, val_main_v15_apply, val_main_v16_apply, sum_idx2, sum_idx2]
  simp only [rowMin_apply, colMin_apply, val_main_cst_4_apply, val_main_cst_5_apply, val_main_cst_6_apply,
    Ideal.hostDivf_def, Ideal.addf_def, Ideal.ofBits_def]
  unfold total
  rw [sums_regrouped x0 x1 _ Ideal.ofBits_zero_f32]

end Cert.ReferenceIdeal.RefValue

end
-- ==== Proof.lean ====
/- The proof of `Cert.Claim` (proofs.«165440_j12506944766654_2_alg».proof.Defs).

   Both programs compute, for two batches of point clouds, the symmetric sum of smallest squared distances, the
   distances in their expanded form `(|a|² + |b|²) - 2 · ⟨a, b⟩`, summed over the batches and divided by 8
   (`Cert.Chamfer.total`, Proof/ChamferSpec.lean). The kernel visits each batch in eight runs of 1024 points of the first
   cloud, carrying a running sum of the smallest row distances and a lane-wise running minimum of the column distances,
   and writes a batch's contribution at its eighth run; the host adds the eight contributions and divides. The reference
   takes every sum and minimum whole. On the extended reals the two arrangements agree by associativity and commutativity
   of addition and by the order alone: no entry needs to be finite, so the precondition is never opened.

   Proof/ChamferTile.lean reads one point's arithmetic entry by entry; Proof/ChamferBlocks.lean what a point's input
   blocks hold of the two clouds; Proof/ChamferPieces.lean what each kind of point leaves in the carried buffers and the
   output's block; Proof/ChamferCarry.lean the induction over the runs of a batch; Proof/ChamferKernel.lean the output
   array, the host's last lines and the kernel's run; Proof/ChamferRef.lean that the reference's term is the same
   function. The three frames are the generated ones (the reference's is its run with the result dropped); the
   idealization rewrote nothing. -/
import proofs.«165440_j12506944766654_2_alg».proof.Defs
import proofs.«165440_j12506944766654_2_alg».proof.Proof.Gen.Kernel
import proofs.«165440_j12506944766654_2_alg».proof.Proof.Gen.Kernel.Frame
import proofs.«165440_j12506944766654_2_alg».proof.Proof.Gen.KernelIdeal
import proofs.«165440_j12506944766654_2_alg».proof.Proof.Gen.KernelIdeal.Frame
import proofs.«165440_j12506944766654_2_alg».proof.Proof.Gen.ReferenceIdeal
import proofs.«165440_j12506944766654_2_alg».proof.Proof.Gen.ReferenceIdeal.Run
import proofs.«165440_j12506944766654_2_alg».proof.Proof.Gen.ReferenceIdeal.Read
import proofs.«165440_j12506944766654_2_alg».proof.Proof.Gen.Pre_finite_inputs
import proofs.«165440_j12506944766654_2_alg».proof.Proof.ChamferKernel
import proofs.«165440_j12506944766654_2_alg».proof.Proof.ChamferRef
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Run from memories that agree on the two clouds, both programs end with `total` of them. -/
theorem algebraic : Cert.algebraic_KernelIdeal_ReferenceIdeal := by
  intro m ρ m' ρ' _ hagree
  refine ⟨_, Cert.KernelIdeal.Out.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v18_eq, Cert.ReferenceIdeal.RefValue.result_eq, (hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
